-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩

abbrev nBuf : Space → Nat
  | .hbm => 57
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .bf16⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .bf16⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .bf16⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128, .f32⟩
  | .hbm, ⟨56, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S5000x128, .bf16⟩
  | .local _ .vmem, ⟨26, _⟩ => ⟨S5000x128, .bf16⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .bf16 = 32 ∨ (Rect.block (s := S100000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .bf16 = 32 ∨ (Rect.block (s := S100000x128) S5000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x1, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KMatmulScale.lean ====
/-
  Region 0 of the kernel program: `h' = (X · W) * dis`, one block of 5000 rows per grid point.
  The value the region leaves in its output array, as ONE function of the three arrays it reads, at any contents
  `V` of the buffers when the region is entered: row `i`, channel `c` holds `(∑ₖ X[i,k] · W[k,c]) · D[i,0]`.
  At the ideal instance a change of float format is the identity, and the matrix product into a zero accumulator
  is the plain sum over the contracted axis.
-/
import proofs.«164124_j50483045597683_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KVal

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The matrix product of a row block with the weights, then each row scaled by its node's factor: the whole
    array the two linear regions compute, index by index. -/
def MS (X : S100000x128.Idx → EReal) (W : S128x128.Idx → EReal) (D : S100000x1.Idx → EReal) : S100000x128.Idx → EReal :=
  fun p => (∑ k : Fin 128, X (ix2 (p 0) k) * W (ix2 k (p 1))) * D (ix2 (p 0) 0)

theorem MS_apply (X : S100000x128.Idx → EReal) (W : S128x128.Idx → EReal) (D : S100000x1.Idx → EReal) (i : Fin 100000) (c : Fin 128) :
    MS X W D (ix2 i c) = (∑ k : Fin 128, X (ix2 i k) * W (ix2 k c)) * D (ix2 i 0) := rfl

theorem hz : (![0, 0] : Fin 2 → Nat) = fun _ => 0 := funext fun a => by fin_cases a <;> rfl

/-! ## The block-level product -/

local notation "dotB" => dot_S5000x128_S128x128_S5000x128_1_0_0_1_n_n

theorem dotB_lhs0 (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl

theorem dotB_rhs1 (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- The block product into a zero accumulator, at row `r` and channel `c`: the sum over the 128 contracted positions. -/
theorem matmulB_apply (a : FVec Ideal S5000x128 .bf16) (b : FVec Ideal S128x128 .bf16) (r : Fin 5000) (c : Fin 128) :
    FloatOps.matmul dot_S5000x128_S128x128_S5000x128_1_0_0_1_n_n none a b (constant (F := Ideal) S5000x128 .f32 0x00000000#32) (ix2 r c)
      = ∑ k : Fin 128, a (ix2 r k) * b (ix2 k c) := by
  refine (Ideal.matmul_constant_zero_apply _ none a b (ix2 r c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 r c)
      ((contrEquiv1 dot_S5000x128_S128x128_S5000x128_1_0_0_1_n_n 128 rfl rfl).symm k) = ix2 r k := funext fun a => Fin.ext (by
    match a with
    | ⟨0, _⟩ => exact dotB_lhs0 _ _
    | ⟨1, _⟩ => exact ((dot_S5000x128_S128x128_S5000x128_1_0_0_1_n_n).lhsIdx_val_of_single rfl _ _).trans hk)
  have er : (dot_S5000x128_S128x128_S5000x128_1_0_0_1_n_n).rhsIdx (ix2 r c)
      ((contrEquiv1 dot_S5000x128_S128x128_S5000x128_1_0_0_1_n_n 128 rfl rfl).symm k) = ix2 k c := funext fun a => Fin.ext (by
    match a with
    | ⟨0, _⟩ => exact ((dot_S5000x128_S128x128_S5000x128_1_0_0_1_n_n).rhsIdx_val_of_single rfl _ _).trans hk
    | ⟨1, _⟩ => exact dotB_rhs1 _ _)
  rw [el, er]

/-- A column of 5000 factors spread over 128 channels, at `(r, c)`: row `r`'s factor. -/
theorem colB_apply (d : FVec Ideal S5000x1 .f32) (r : Fin 5000) (c : Fin 128) :
    broadcastTo S5000x128 (shapeCast S5000x1 d shapeCasts_S5000x1_S5000x1) broadcasts_S5000x1_S5000x128 (ix2 r c) = d (ix2 r 0) := by
  rw [shapeCast_self]
  refine broadcastTo_apply d broadcasts_S5000x1_S5000x128 (ix2 r c) (ix2 r 0) fun a => ?_
  match a with
  | ⟨0, _⟩ => rfl
  | ⟨1, _⟩ => rfl

/-- The body's stored value at row `r`, channel `c` of the block. -/
theorem pay0_apply (x0 : Vec Ideal S5000x128 .f32) (x1 : Vec Ideal S128x128 .f32) (x2 : Vec Ideal S5000x1 .f32) (r : Fin 5000) (c : Fin 128) :
    k0_pay1 (F := Ideal) x0 x1 x2 (ix2 r c) = (∑ k : Fin 128, x0 (ix2 r k) * x1 (ix2 k c)) * x2 (ix2 r 0) := by
  unfold k0_pay1
  show FloatOps.matmul dot_S5000x128_S128x128_S5000x128_1_0_0_1_n_n none (truncf .bf16 x0 bitsLt_bf16_f32) (truncf .bf16 x1 bitsLt_bf16_f32)
      (constant (F := Ideal) S5000x128 .f32 0x00000000#32) (ix2 r c)
    * broadcastTo S5000x128 (shapeCast S5000x1 x2 shapeCasts_S5000x1_S5000x1) broadcasts_S5000x1_S5000x128 (ix2 r c) = _
  rw [matmulB_apply, colB_apply]
  rfl

/-! ## From blocks to the array: region 0 -/

section Region0

variable (V : (c : Dev nD) → (b : Ref sig .tc) → Buf (Elt Ideal) ((c : Thread nD τ).loc b))

/-- The printed index maps over the grid of 20 points: the row windows sit at block `t` of the row axis, the weights
    at the origin. -/
theorem idx_facts0 : ∀ t : Fin cfg0.N, t.val < 20
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `MS` of the arrays as the region finds them. -/
theorem flushed0_eq (c : Dev nD) (t : Fin cfg0.N) :
    (dat0 V c).flushed 3 t = ((cfg0.win 3).blk t).view.read (Elt Ideal) (MS (V c main_arg0) (V c main_arg2) (V c main_v13)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨ht, e00, e01, e10, e11, e20, e21, e30, e31⟩ := idx_facts0 t
  funext j
  obtain ⟨r, q, rfl⟩ : ∃ (r : Fin 5000) (q : Fin 128), j = ix2 r q := ⟨j 0, j 1, eq_ix2 j⟩
  have hr : r.val < 5000 := r.isLt
  refine (pay0_apply (iblk0 V c 0 t) (iblk0 V c 1 t) (iblk0 V c 2 t) r q).trans ?_
  have hi : ((cfg0.win 3).blk t).view.emb (ix2 r q) = ix2 ⟨t.val * 5000 + r.val, by omega⟩ q := by
    funext a; apply Fin.ext
    match a with
    | ⟨0, _⟩ => show win0_3.index t (0 : Fin 2) * 5000 + 1 * r.val = t.val * 5000 + r.val; omega
    | ⟨1, _⟩ => show win0_3.index t (1 : Fin 2) * 128 + 1 * q.val = q.val; omega
  show _ = MS (V c main_arg0) (V c main_arg2) (V c main_v13) (((cfg0.win 3).blk t).view.emb (ix2 r q))
  rw [hi, MS_apply]
  have h2 : iblk0 V c 2 t (ix2 r 0) = V c main_v13 (ix2 ⟨t.val * 5000 + r.val, by omega⟩ 0) := by
    show V c main_v13 (((cfg0.win 2).blk t).view.emb (ix2 r 0)) = _
    refine congrArg (V c main_v13) (funext fun a => Fin.ext ?_)
    match a with
    | ⟨0, _⟩ => show win0_2.index t (0 : Fin 2) * 5000 + 1 * r.val = t.val * 5000 + r.val; omega
    | ⟨1, _⟩ => show win0_2.index t (1 : Fin 2) * 1 + 1 * 0 = 0; omega
  rw [h2]
  refine congrArg (· * _) (Finset.sum_congr rfl fun k _ => ?_)
  have h0 : iblk0 V c 0 t (ix2 r k) = V c main_arg0 (ix2 ⟨t.val * 5000 + r.val, by omega⟩ k) := by
    show V c main_arg0 (((cfg0.win 0).blk t).view.emb (ix2 r k)) = _
    refine congrArg (V c main_arg0) (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * k.val = k.val; omega
  have h1 : iblk0 V c 1 t (ix2 k q) = V c main_arg2 (ix2 k q) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Every block of rows is some point's. -/
theorem idx_onto0 : ∀ q : Fin 20, ∃ t : Fin cfg0.N, win0_3.index t (0 : Fin 2) = q.val ∧ win0_3.index t (1 : Fin 2) = 0 :=
  (by decide +kernel : ∀ q : Fin 20, ∃ t : Fin grid0.N, win0_3.index t (0 : Fin 2) = q.val ∧ win0_3.index t (1 : Fin 2) = 0)

/-- The 20 blocks of 5000 rows tile the 100000 rows: row `i` is in block `i / 5000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, q0, q1⟩ := idx_onto0 ⟨(i 0).val / 5000, by omega⟩
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; simp only at q0; omega
  | ⟨1, _⟩ => show win0_3.index t (1 : Fin 2) * 128 ≤ (i 1).val ∧ (i 1).val < win0_3.index t (1 : Fin 2) * 128 + 128; omega

/-- THE ARRAY region 0 leaves: `MS` of the arrays it found. -/
theorem final0 (c : Dev nD) : (dat0 V c).arrAt 3 cfg0.N = MS (V c main_arg0) (V c main_arg2) (V c main_v13) :=
  (dat0 V c).arrAt_eq_of_cover 3 (MS (V c main_arg0) (V c main_arg2) (V c main_v13)) (fun t _ => flushed0_eq V c t) cover0

end Region0

/-- Region 2's stored value at row `r`, channel `c` of the block: the same product and scale (its input block passes
    through a reshape to its own shape first). -/
theorem pay2_apply (x0 : Vec Ideal S5000x128 .f32) (x1 : Vec Ideal S128x128 .f32) (x2 : Vec Ideal S5000x1 .f32) (r : Fin 5000) (c : Fin 128) :
    k2_pay1 (F := Ideal) x0 x1 x2 (ix2 r c) = (∑ k : Fin 128, x0 (ix2 r k) * x1 (ix2 k c)) * x2 (ix2 r 0) := by
  unfold k2_pay1
  show FloatOps.matmul dot_S5000x128_S128x128_S5000x128_1_0_0_1_n_n none
      (truncf .bf16 (shapeCast S5000x128 x0 shapeCasts_S5000x128_S5000x128) bitsLt_bf16_f32) (truncf .bf16 x1 bitsLt_bf16_f32)
      (constant (F := Ideal) S5000x128 .f32 0x00000000#32) (ix2 r c)
    * broadcastTo S5000x128 (shapeCast S5000x1 x2 shapeCasts_S5000x1_S5000x1) broadcasts_S5000x1_S5000x128 (ix2 r c) = _
  rw [shapeCast_self, matmulB_apply, colB_apply]
  rfl

/-! ## From blocks to the array: region 2 -/

section Region2

variable (V : (c : Dev nD) → (b : Ref sig .tc) → Buf (Elt Ideal) ((c : Thread nD τ).loc b))

/-- The printed index maps over the grid of 20 points: the row windows sit at block `t` of the row axis, the weights
    at the origin. -/
theorem idx_facts2 : ∀ t : Fin cfg2.N, t.val < 20
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of `MS` of the arrays as the region finds them. -/
theorem flushed2_eq (c : Dev nD) (t : Fin cfg2.N) :
    (dat2 V c).flushed 3 t = ((cfg2.win 3).blk t).view.read (Elt Ideal) (MS (V c main_v27) (V c main_arg4) (V c main_v13)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨ht, e00, e01, e10, e11, e20, e21, e30, e31⟩ := idx_facts2 t
  funext j
  obtain ⟨r, q, rfl⟩ : ∃ (r : Fin 5000) (q : Fin 128), j = ix2 r q := ⟨j 0, j 1, eq_ix2 j⟩
  have hr : r.val < 5000 := r.isLt
  refine (pay2_apply (iblk2 V c 0 t) (iblk2 V c 1 t) (iblk2 V c 2 t) r q).trans ?_
  have hi : ((cfg2.win 3).blk t).view.emb (ix2 r q) = ix2 ⟨t.val * 5000 + r.val, by omega⟩ q := by
    funext a; apply Fin.ext
    match a with
    | ⟨0, _⟩ => show win2_3.index t (0 : Fin 2) * 5000 + 1 * r.val = t.val * 5000 + r.val; omega
    | ⟨1, _⟩ => show win2_3.index t (1 : Fin 2) * 128 + 1 * q.val = q.val; omega
  show _ = MS (V c main_v27) (V c main_arg4) (V c main_v13) (((cfg2.win 3).blk t).view.emb (ix2 r q))
  rw [hi, MS_apply]
  have h2 : iblk2 V c 2 t (ix2 r 0) = V c main_v13 (ix2 ⟨t.val * 5000 + r.val, by omega⟩ 0) := by
    show V c main_v13 (((cfg2.win 2).blk t).view.emb (ix2 r 0)) = _
    refine congrArg (V c main_v13) (funext fun a => Fin.ext ?_)
    match a with
    | ⟨0, _⟩ => show win2_2.index t (0 : Fin 2) * 5000 + 1 * r.val = t.val * 5000 + r.val; omega
    | ⟨1, _⟩ => show win2_2.index t (1 : Fin 2) * 1 + 1 * 0 = 0; omega
  rw [h2]
  refine congrArg (· * _) (Finset.sum_congr rfl fun k _ => ?_)
  have h0 : iblk2 V c 0 t (ix2 r k) = V c main_v27 (ix2 ⟨t.val * 5000 + r.val, by omega⟩ k) := by
    show V c main_v27 (((cfg2.win 0).blk t).view.emb (ix2 r k)) = _
    refine congrArg (V c main_v27) (funext fun a => Fin.ext ?_)
    match a with
    | ⟨0, _⟩ => show win2_0.index t (0 : Fin 2) * 5000 + 1 * r.val = t.val * 5000 + r.val; omega
    | ⟨1, _⟩ => show win2_0.index t (1 : Fin 2) * 128 + 1 * k.val = k.val; omega
  have h1 : iblk2 V c 1 t (ix2 k q) = V c main_arg4 (ix2 k q) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  rw [h0, h1]

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v28).slice (win2_3.rect t)).set ↔ _
  rw [View.set_slice_whole, Rect.mem_set_unit]
  exact Iff.rfl

/-- Every block of rows is some point's. -/
theorem idx_onto2 : ∀ q : Fin 20, ∃ t : Fin cfg2.N, win2_3.index t (0 : Fin 2) = q.val ∧ win2_3.index t (1 : Fin 2) = 0 :=
  (by decide +kernel : ∀ q : Fin 20, ∃ t : Fin grid2.N, win2_3.index t (0 : Fin 2) = q.val ∧ win2_3.index t (1 : Fin 2) = 0)

/-- The 20 blocks of 5000 rows tile the 100000 rows: row `i` is in block `i / 5000`. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, q0, q1⟩ := idx_onto2 ⟨(i 0).val / 5000, by omega⟩
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; simp only at q0; omega
  | ⟨1, _⟩ => show win2_3.index t (1 : Fin 2) * 128 ≤ (i 1).val ∧ (i 1).val < win2_3.index t (1 : Fin 2) * 128 + 128; omega

/-- THE ARRAY region 2 leaves: `MS` of the arrays it found. -/
theorem final2 (c : Dev nD) : (dat2 V c).arrAt 3 cfg2.N = MS (V c main_v27) (V c main_arg4) (V c main_v13) :=
  (dat2 V c).arrAt_eq_of_cover 3 (MS (V c main_v27) (V c main_arg4) (V c main_v13)) (fun t _ => flushed2_eq V c t) cover2

end Region2

end Cert.KernelIdeal.KVal

end
-- ==== Proof.KCombine.lean ====
/-
  Regions 1 and 3 of the kernel program: the combine `dis · agg + (2 · dis) · h' + b`, region 1 followed by a maximum
  with zero, one block of 5000 rows per grid point. The value each region leaves in its output array, as ONE function
  of the four arrays it reads, at any contents `V` of the buffers when the region is entered.
-/
import proofs.«164124_j50483045597683_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KVal

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The combine, index by index: node `i`'s factor times its aggregate, plus twice the factor times its own scaled
    row, plus the bias of the channel. -/
def CB (A : S100000x128.Idx → EReal) (HP : S100000x128.Idx → EReal) (D : S100000x1.Idx → EReal) (B : S1x128.Idx → EReal) :
    S100000x128.Idx → EReal :=
  fun p => (D (ix2 (p 0) 0) * A p + (Ideal.ofBits .f32 0x40000000#32 * D (ix2 (p 0) 0)) * HP p) + B (ix2 0 (p 1))

/-- The combine followed by the maximum with zero. -/
def CBr (A : S100000x128.Idx → EReal) (HP : S100000x128.Idx → EReal) (D : S100000x1.Idx → EReal) (B : S1x128.Idx → EReal) :
    S100000x128.Idx → EReal :=
  fun p => max (CB A HP D B p) (Ideal.ofBits .f32 0x00000000#32)

theorem CB_apply (A HP : S100000x128.Idx → EReal) (D : S100000x1.Idx → EReal) (B : S1x128.Idx → EReal) (i : Fin 100000) (c : Fin 128) :
    CB A HP D B (ix2 i c) = (D (ix2 i 0) * A (ix2 i c) + (Ideal.ofBits .f32 0x40000000#32 * D (ix2 i 0)) * HP (ix2 i c)) + B (ix2 0 c) := rfl

theorem CBr_apply (A HP : S100000x128.Idx → EReal) (D : S100000x1.Idx → EReal) (B : S1x128.Idx → EReal) (i : Fin 100000) (c : Fin 128) :
    CBr A HP D B (ix2 i c) = max ((D (ix2 i 0) * A (ix2 i c) + (Ideal.ofBits .f32 0x40000000#32 * D (ix2 i 0)) * HP (ix2 i c)) + B (ix2 0 c)) (Ideal.ofBits .f32 0x00000000#32) := rfl

/-- The second combine is the first followed by the maximum with zero, at every index. -/
theorem CBr_eq (A HP : S100000x128.Idx → EReal) (D : S100000x1.Idx → EReal) (B : S1x128.Idx → EReal) (p : S100000x128.Idx) :
    CBr A HP D B p = max (CB A HP D B p) (Ideal.ofBits .f32 0x00000000#32) := rfl

theorem hzc : (![0, 0] : Fin 2 → Nat) = fun _ => 0 := funext fun a => by fin_cases a <;> rfl

/-! ## The layout operations of the body, at an index -/

/-- A column of 5000 values spread over 128 channels, at `(r, c)`: row `r`'s value. -/
theorem colC_apply (d : FVec Ideal S5000x1 .f32) (r : Fin 5000) (c : Fin 128) :
    broadcastTo S5000x128 d broadcasts_S5000x1_S5000x128 (ix2 r c) = d (ix2 r 0) := by
  refine broadcastTo_apply d broadcasts_S5000x1_S5000x128 (ix2 r c) (ix2 r 0) fun a => ?_
  match a with
  | ⟨0, _⟩ => rfl
  | ⟨1, _⟩ => rfl

/-- A row of 128 values spread over 5000 rows, at `(r, c)`: channel `c`'s value. -/
theorem rowC_apply (b : FVec Ideal S1x128 .f32) (r : Fin 5000) (c : Fin 128) :
    broadcastTo S5000x128 b broadcasts_S1x128_S5000x128 (ix2 r c) = b (ix2 0 c) := by
  refine broadcastTo_apply b broadcasts_S1x128_S5000x128 (ix2 r c) (ix2 0 c) fun a => ?_
  match a with
  | ⟨0, _⟩ => rfl
  | ⟨1, _⟩ => rfl

/-- Region 3's stored value at row `r`, channel `c` of the block. -/
theorem pay3_apply (xd : Vec Ideal S5000x1 .f32) (xh : Vec Ideal S5000x128 .bf16) (xa : Vec Ideal S5000x128 .f32) (xb : Vec Ideal S1x128 .f32)
    (r : Fin 5000) (c : Fin 128) :
    k3_pay1 (F := Ideal) xd xh xa xb (ix2 r c)
      = (xd (ix2 r 0) * xa (ix2 r c) + (Ideal.ofBits .f32 0x40000000#32 * xd (ix2 r 0)) * xh (ix2 r c)) + xb (ix2 0 c) := by
  unfold k3_pay1
  simp only [shapeCast_self]
  show (broadcastTo S5000x128 xd broadcasts_S5000x1_S5000x128 (ix2 r c) * xa (ix2 r c)
      + broadcastTo S5000x128 (mulf (broadcast S5000x1 (Scalar.ofBits (F := Ideal) .f32 0x40000000#32)) xd) broadcasts_S5000x1_S5000x128 (ix2 r c) * xh (ix2 r c))
      + broadcastTo S5000x128 xb broadcasts_S1x128_S5000x128 (ix2 r c) = _
  rw [colC_apply, colC_apply, rowC_apply]
  rfl

/-- Region 1's stored value at row `r`, channel `c` of the block: the same, then the maximum with zero. -/
theorem pay1_apply (xd : Vec Ideal S5000x1 .f32) (xh : Vec Ideal S5000x128 .bf16) (xa : Vec Ideal S5000x128 .f32) (xb : Vec Ideal S1x128 .f32)
    (r : Fin 5000) (c : Fin 128) :
    k1_pay1 (F := Ideal) xd xh xa xb (ix2 r c)
      = max ((xd (ix2 r 0) * xa (ix2 r c) + (Ideal.ofBits .f32 0x40000000#32 * xd (ix2 r 0)) * xh (ix2 r c)) + xb (ix2 0 c)) (Ideal.ofBits .f32 0x00000000#32) := by
  unfold k1_pay1
  simp only [shapeCast_self]
  show max ((broadcastTo S5000x128 xd broadcasts_S5000x1_S5000x128 (ix2 r c) * xa (ix2 r c)
      + broadcastTo S5000x128 (mulf (broadcast S5000x1 (Scalar.ofBits (F := Ideal) .f32 0x40000000#32)) xd) broadcasts_S5000x1_S5000x128 (ix2 r c) * xh (ix2 r c))
      + broadcastTo S5000x128 xb broadcasts_S1x128_S5000x128 (ix2 r c)) (Ideal.ofBits .f32 0x00000000#32) = _
  rw [colC_apply, colC_apply, rowC_apply]
  rfl

/-! ## From blocks to the array: region 3 -/

section Region3

variable (V : (c : Dev nD) → (b : Ref sig .tc) → Buf (Elt Ideal) ((c : Thread nD τ).loc b))

/-- The printed index maps over the grid of 20 points: the row windows sit at block `t` of the row axis, the bias
    at the origin. -/
theorem idx_facts3 : ∀ t : Fin cfg3.N, t.val < 20
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT `t` WRITES BACK is block `t` of the combine of the arrays as the region finds them. -/
theorem flushed3_eq (c : Dev nD) (t : Fin cfg3.N) :
    (dat3 V c).flushed 4 t = ((cfg3.win 4).blk t).view.read (Elt Ideal) (CB (V c main_v39) (V c main_v28) (V c main_v13) (V c main_v40)) := by
  show (cfg3.win 4).cut (grid3.coords t) ((dat3 V c).after 4 t) = _
  rw [after3_4]
  unfold out3_4
  rw [View.canon_unit_zero hzc]
  simp only [View.ld_unit_zero (S := S5000x128) hzc, View.ld_unit_zero (S := S1x128) hzc, View.ld_unit_zero (S := S5000x1) hzc]
  obtain ⟨ht, e00, e01, e10, e11, e20, e21, e30, e31, e40, e41⟩ := idx_facts3 t
  funext j
  obtain ⟨r, q, rfl⟩ : ∃ (r : Fin 5000) (q : Fin 128), j = ix2 r q := ⟨j 0, j 1, eq_ix2 j⟩
  have hr : r.val < 5000 := r.isLt
  refine (pay3_apply (iblk3 V c 2 t) (iblk3 V c 1 t) (iblk3 V c 0 t) (iblk3 V c 3 t) r q).trans ?_
  have hi : ((cfg3.win 4).blk t).view.emb (ix2 r q) = ix2 ⟨t.val * 5000 + r.val, by omega⟩ q := by
    funext a; apply Fin.ext
    match a with
    | ⟨0, _⟩ => show win3_4.index t (0 : Fin 2) * 5000 + 1 * r.val = t.val * 5000 + r.val; omega
    | ⟨1, _⟩ => show win3_4.index t (1 : Fin 2) * 128 + 1 * q.val = q.val; omega
  show _ = CB (V c main_v39) (V c main_v28) (V c main_v13) (V c main_v40) (((cfg3.win 4).blk t).view.emb (ix2 r q))
  rw [hi, CB_apply]
  have h2 : iblk3 V c 2 t (ix2 r 0) = V c main_v13 (ix2 ⟨t.val * 5000 + r.val, by omega⟩ 0) := by
    show V c main_v13 (((cfg3.win 2).blk t).view.emb (ix2 r 0)) = _
    refine congrArg (V c main_v13) (funext fun a => Fin.ext ?_)
    match a with
    | ⟨0, _⟩ => show win3_2.index t (0 : Fin 2) * 5000 + 1 * r.val = t.val * 5000 + r.val; omega
    | ⟨1, _⟩ => show win3_2.index t (1 : Fin 2) * 1 + 1 * 0 = 0; omega
  have h0 : iblk3 V c 0 t (ix2 r q) = V c main_v39 (ix2 ⟨t.val * 5000 + r.val, by omega⟩ q) := by
    show V c main_v39 (((cfg3.win 0).blk t).view.emb (ix2 r q)) = _
    refine congrArg (V c main_v39) (funext fun a => Fin.ext ?_)
    match a with
    | ⟨0, _⟩ => show win3_0.index t (0 : Fin 2) * 5000 + 1 * r.val = t.val * 5000 + r.val; omega
    | ⟨1, _⟩ => show win3_0.index t (1 : Fin 2) * 128 + 1 * q.val = q.val; omega
  have h1 : iblk3 V c 1 t (ix2 r q) = V c main_v28 (ix2 ⟨t.val * 5000 + r.val, by omega⟩ q) := by
    show V c main_v28 (((cfg3.win 1).blk t).view.emb (ix2 r q)) = _
    refine congrArg (V c main_v28) (funext fun a => Fin.ext ?_)
    match a with
    | ⟨0, _⟩ => show win3_1.index t (0 : Fin 2) * 5000 + 1 * r.val = t.val * 5000 + r.val; omega
    | ⟨1, _⟩ => show win3_1.index t (1 : Fin 2) * 128 + 1 * q.val = q.val; omega
  have h3 : iblk3 V c 3 t (ix2 0 q) = V c main_v40 (ix2 0 q) := by
    show V c main_v40 (((cfg3.win 3).blk t).view.emb (ix2 0 q)) = _
    refine congrArg (V c main_v40) (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  rw [h0, h1, h2, h3]

/-- An index of the output array is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v41).slice (win3_4.rect t)).set ↔ _
  rw [View.set_slice_whole, Rect.mem_set_unit]
  exact Iff.rfl

/-- Every block of rows is some point's. -/
theorem idx_onto3 : ∀ q : Fin 20, ∃ t : Fin cfg3.N, win3_4.index t (0 : Fin 2) = q.val ∧ win3_4.index t (1 : Fin 2) = 0 :=
  (by decide +kernel : ∀ q : Fin 20, ∃ t : Fin grid3.N, win3_4.index t (0 : Fin 2) = q.val ∧ win3_4.index t (1 : Fin 2) = 0)

/-- The 20 blocks of 5000 rows tile the 100000 rows: row `i` is in block `i / 5000`. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, q0, q1⟩ := idx_onto3 ⟨(i 0).val / 5000, by omega⟩
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; simp only at q0; omega
  | ⟨1, _⟩ => show win3_4.index t (1 : Fin 2) * 128 ≤ (i 1).val ∧ (i 1).val < win3_4.index t (1 : Fin 2) * 128 + 128; omega

/-- THE ARRAY region 3 leaves: the combine of the arrays it found. -/
theorem final3 (c : Dev nD) : (dat3 V c).arrAt 4 cfg3.N = CB (V c main_v39) (V c main_v28) (V c main_v13) (V c main_v40) :=
  (dat3 V c).arrAt_eq_of_cover 4 (CB (V c main_v39) (V c main_v28) (V c main_v13) (V c main_v40)) (fun t _ => flushed3_eq V c t) cover3

end Region3

/-! ## From blocks to the array: region 1 -/

section Region1

variable (V : (c : Dev nD) → (b : Ref sig .tc) → Buf (Elt Ideal) ((c : Thread nD τ).loc b))

/-- The printed index maps over the grid of 20 points: the row windows sit at block `t` of the row axis, the bias
    at the origin. -/
theorem idx_facts1 : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the combine, then the maximum with zero, of the arrays as the region finds them. -/
theorem flushed1_eq (c : Dev nD) (t : Fin cfg1.N) :
    (dat1 V c).flushed 4 t = ((cfg1.win 4).blk t).view.read (Elt Ideal) (CBr (V c main_v25) (V c main_v14) (V c main_v13) (V c main_v26)) := by
  show (cfg1.win 4).cut (grid1.coords t) ((dat1 V c).after 4 t) = _
  rw [after1_4]
  unfold out1_4
  rw [View.canon_unit_zero hzc]
  simp only [View.ld_unit_zero (S := S5000x128) hzc, View.ld_unit_zero (S := S1x128) hzc, View.ld_unit_zero (S := S5000x1) hzc]
  obtain ⟨ht, e00, e01, e10, e11, e20, e21, e30, e31, e40, e41⟩ := idx_facts1 t
  funext j
  obtain ⟨r, q, rfl⟩ : ∃ (r : Fin 5000) (q : Fin 128), j = ix2 r q := ⟨j 0, j 1, eq_ix2 j⟩
  have hr : r.val < 5000 := r.isLt
  refine (pay1_apply (iblk1 V c 2 t) (iblk1 V c 1 t) (iblk1 V c 0 t) (iblk1 V c 3 t) r q).trans ?_
  have hi : ((cfg1.win 4).blk t).view.emb (ix2 r q) = ix2 ⟨t.val * 5000 + r.val, by omega⟩ q := by
    funext a; apply Fin.ext
    match a with
    | ⟨0, _⟩ => show win1_4.index t (0 : Fin 2) * 5000 + 1 * r.val = t.val * 5000 + r.val; omega
    | ⟨1, _⟩ => show win1_4.index t (1 : Fin 2) * 128 + 1 * q.val = q.val; omega
  show _ = CBr (V c main_v25) (V c main_v14) (V c main_v13) (V c main_v26) (((cfg1.win 4).blk t).view.emb (ix2 r q))
  rw [hi, CBr_apply]
  have h2 : iblk1 V c 2 t (ix2 r 0) = V c main_v13 (ix2 ⟨t.val * 5000 + r.val, by omega⟩ 0) := by
    show V c main_v13 (((cfg1.win 2).blk t).view.emb (ix2 r 0)) = _
    refine congrArg (V c main_v13) (funext fun a => Fin.ext ?_)
    match a with
    | ⟨0, _⟩ => show win1_2.index t (0 : Fin 2) * 5000 + 1 * r.val = t.val * 5000 + r.val; omega
    | ⟨1, _⟩ => show win1_2.index t (1 : Fin 2) * 1 + 1 * 0 = 0; omega
  have h0 : iblk1 V c 0 t (ix2 r q) = V c main_v25 (ix2 ⟨t.val * 5000 + r.val, by omega⟩ q) := by
    show V c main_v25 (((cfg1.win 0).blk t).view.emb (ix2 r q)) = _
    refine congrArg (V c main_v25) (funext fun a => Fin.ext ?_)
    match a with
    | ⟨0, _⟩ => show win1_0.index t (0 : Fin 2) * 5000 + 1 * r.val = t.val * 5000 + r.val; omega
    | ⟨1, _⟩ => show win1_0.index t (1 : Fin 2) * 128 + 1 * q.val = q.val; omega
  have h1 : iblk1 V c 1 t (ix2 r q) = V c main_v14 (ix2 ⟨t.val * 5000 + r.val, by omega⟩ q) := by
    show V c main_v14 (((cfg1.win 1).blk t).view.emb (ix2 r q)) = _
    refine congrArg (V c main_v14) (funext fun a => Fin.ext ?_)
    match a with
    | ⟨0, _⟩ => show win1_1.index t (0 : Fin 2) * 5000 + 1 * r.val = t.val * 5000 + r.val; omega
    | ⟨1, _⟩ => show win1_1.index t (1 : Fin 2) * 128 + 1 * q.val = q.val; omega
  have h3 : iblk1 V c 3 t (ix2 0 q) = V c main_v26 (ix2 0 q) := by
    show V c main_v26 (((cfg1.win 3).blk t).view.emb (ix2 0 q)) = _
    refine congrArg (V c main_v26) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  rw [h0, h1, h2, h3]

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v27).slice (win1_4.rect t)).set ↔ _
  rw [View.set_slice_whole, Rect.mem_set_unit]
  exact Iff.rfl

/-- Every block of rows is some point's. -/
theorem idx_onto1 : ∀ q : Fin 20, ∃ t : Fin cfg1.N, win1_4.index t (0 : Fin 2) = q.val ∧ win1_4.index t (1 : Fin 2) = 0 :=
  (by decide +kernel : ∀ q : Fin 20, ∃ t : Fin grid1.N, win1_4.index t (0 : Fin 2) = q.val ∧ win1_4.index t (1 : Fin 2) = 0)

/-- The 20 blocks of 5000 rows tile the 100000 rows: row `i` is in block `i / 5000`. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, q0, q1⟩ := idx_onto1 ⟨(i 0).val / 5000, by omega⟩
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; simp only at q0; omega
  | ⟨1, _⟩ => show win1_4.index t (1 : Fin 2) * 128 ≤ (i 1).val ∧ (i 1).val < win1_4.index t (1 : Fin 2) * 128 + 128; omega

/-- THE ARRAY region 1 leaves: the combine, then the maximum with zero, of the arrays it found. -/
theorem final1 (c : Dev nD) : (dat1 V c).arrAt 4 cfg1.N = CBr (V c main_v25) (V c main_v14) (V c main_v13) (V c main_v26) :=
  (dat1 V c).arrAt_eq_of_cover 4 (CBr (V c main_v25) (V c main_v14) (V c main_v13) (V c main_v26)) (fun t _ => flushed1_eq V c t) cover1

end Region1

end Cert.KernelIdeal.KVal

end
-- ==== Proof.KHost.lean ====
/-
  The host operations of the kernel program between its four regions, as whole-array functions: the two rows of the
  edge list, the per-node factor `dis = rsqrt(deg)` with `deg[j] = (number of edges into j) + 2` as a column, the
  aggregation `agg[j] = ∑ over edges e into j of h'[src e]` (a row gather at the wrapped source index, then a
  row scatter-add at the destination index into zeros), and the bias as a row. Each stretch of host operations is read
  over an ARBITRARY contents `W` of the buffers before it: what it writes, and that it leaves the other buffers alone.
-/
import proofs.«164124_j50483045597683_2_alg».proof.Proof.Gen.KernelIdeal.Frame
import Idealize.ShloMosaic.Lib.StableHlo.Run
import Idealize.ShloMosaic.PureOps.Ideal.Laws

set_option maxRecDepth 16384

noncomputable section

namespace Cert.KernelIdeal.KVal

open Cert.KernelIdeal Cert.KernelIdeal.Gen Idealize.ShloMosaic Idealize.ShloMosaic.TcCoe Idealize.ShloMosaic.StableHlo
open Idealize.SL Idealize.SL.Sem

/-- Row 0 of the edge list: the source words. -/
def srcV (ei : IVec S2x1600000 32) : IVec S1600000 32 :=
  shapeCast S1600000 (extractStridedSlice S1x1600000 ![0, 0] ei slices_S2x1600000_S1x1600000_0_0) shapeCasts_S1x1600000_S1600000

/-- Row 1 of the edge list: the destination words. -/
def dstV (ei : IVec S2x1600000 32) : IVec S1600000 32 :=
  shapeCast S1600000 (extractStridedSlice S1x1600000 ![1, 0] ei slices_S2x1600000_S1x1600000_1_0) shapeCasts_S1x1600000_S1600000

/-- The per-node factor as a column: the reciprocal square root of (ones scattered onto zeros at the destinations, plus two). -/
def disV (ei : IVec S2x1600000 32) : FVec Ideal S100000x1 .f32 :=
  shapeCast S100000x1
    (Host.rsqrt (F := Ideal)
      (addf
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (dstV ei))
          (broadcastInDim S1600000 ![] bcast_S_S1600000 (constant (F := Ideal) S_ .f32 0x3F800000#32)))
        (broadcastInDim S100000 ![] bcast_S_S100000 (constant (F := Ideal) S_ .f32 0x40000000#32))))
    shapeCasts_S100000_S100000x1

/-- The aggregation of the scaled rows `HP` along the edges: gather row `src e` (a negative word counted from the end,
    then clamped) for every edge, scatter-add it onto row `dst e` of zeros. -/
def aggV (HP : FVec Ideal S100000x128 .bf16) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf .f32
      (Host.gather gather_S100000x128_S1600000x1_S1600000x128_1_0_n_n_0_1_1128 HP
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src)))
      bitsLt_bf16_f32)

/-- The bias as a row. -/
def biasV (b : FVec Ideal S128 .f32) : FVec Ideal S1x128 .f32 := shapeCast S1x128 b shapeCasts_S128_S1x128

/-! ## What each stretch writes -/

theorem after0_v13 (W : Valuation τ sig (Elt Ideal)) :
    StableHlo.after (hostOps0 (F := Ideal)) W (Proc.devRef .tc main_v13) = disV (W (Proc.devRef .tc main_arg1)) := by
  after_results; rfl

theorem after0_v1 (W : Valuation τ sig (Elt Ideal)) :
    StableHlo.after (hostOps0 (F := Ideal)) W (Proc.devRef .tc main_v1) = srcV (W (Proc.devRef .tc main_arg1)) := by
  after_results; rfl

theorem after0_v3 (W : Valuation τ sig (Elt Ideal)) :
    StableHlo.after (hostOps0 (F := Ideal)) W (Proc.devRef .tc main_v3) = dstV (W (Proc.devRef .tc main_arg1)) := by
  after_results; rfl

theorem after1_v25 (W : Valuation τ sig (Elt Ideal)) :
    StableHlo.after (hostOps1 (F := Ideal)) W (Proc.devRef .tc main_v25)
      = aggV (W (Proc.devRef .tc main_v14)) (W (Proc.devRef .tc main_v1)) (W (Proc.devRef .tc main_v3)) := by
  after_results; rfl

theorem after1_v26 (W : Valuation τ sig (Elt Ideal)) :
    StableHlo.after (hostOps1 (F := Ideal)) W (Proc.devRef .tc main_v26) = biasV (W (Proc.devRef .tc main_arg3)) := by
  after_results; rfl

theorem after3_v39 (W : Valuation τ sig (Elt Ideal)) :
    StableHlo.after (hostOps3 (F := Ideal)) W (Proc.devRef .tc main_v39)
      = aggV (W (Proc.devRef .tc main_v28)) (W (Proc.devRef .tc main_v1)) (W (Proc.devRef .tc main_v3)) := by
  after_results; rfl

theorem after3_v40 (W : Valuation τ sig (Elt Ideal)) :
    StableHlo.after (hostOps3 (F := Ideal)) W (Proc.devRef .tc main_v40) = biasV (W (Proc.devRef .tc main_arg5)) := by
  after_results; rfl

/-! ## What each stretch leaves alone -/

theorem keep0_arg0 (W : Valuation τ sig (Elt Ideal)) :
    StableHlo.after (hostOps0 (F := Ideal)) W (Proc.devRef .tc main_arg0) = W (Proc.devRef .tc main_arg0) :=
  StableHlo.after_of_forall_not_mem _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_arg1 (W : Valuation τ sig (Elt Ideal)) :
    StableHlo.after (hostOps0 (F := Ideal)) W (Proc.devRef .tc main_arg1) = W (Proc.devRef .tc main_arg1) :=
  StableHlo.after_of_forall_not_mem _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_arg2 (W : Valuation τ sig (Elt Ideal)) :
    StableHlo.after (hostOps0 (F := Ideal)) W (Proc.devRef .tc main_arg2) = W (Proc.devRef .tc main_arg2) :=
  StableHlo.after_of_forall_not_mem _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_arg3 (W : Valuation τ sig (Elt Ideal)) :
    StableHlo.after (hostOps0 (F := Ideal)) W (Proc.devRef .tc main_arg3) = W (Proc.devRef .tc main_arg3) :=
  StableHlo.after_of_forall_not_mem _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_arg4 (W : Valuation τ sig (Elt Ideal)) :
    StableHlo.after (hostOps0 (F := Ideal)) W (Proc.devRef .tc main_arg4) = W (Proc.devRef .tc main_arg4) :=
  StableHlo.after_of_forall_not_mem _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_arg5 (W : Valuation τ sig (Elt Ideal)) :
    StableHlo.after (hostOps0 (F := Ideal)) W (Proc.devRef .tc main_arg5) = W (Proc.devRef .tc main_arg5) :=
  StableHlo.after_of_forall_not_mem _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_v14 (W : Valuation τ sig (Elt Ideal)) :
    StableHlo.after (hostOps1 (F := Ideal)) W (Proc.devRef .tc main_v14) = W (Proc.devRef .tc main_v14) :=
  StableHlo.after_of_forall_not_mem _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_v13 (W : Valuation τ sig (Elt Ideal)) :
    StableHlo.after (hostOps1 (F := Ideal)) W (Proc.devRef .tc main_v13) = W (Proc.devRef .tc main_v13) :=
  StableHlo.after_of_forall_not_mem _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_v1 (W : Valuation τ sig (Elt Ideal)) :
    StableHlo.after (hostOps1 (F := Ideal)) W (Proc.devRef .tc main_v1) = W (Proc.devRef .tc main_v1) :=
  StableHlo.after_of_forall_not_mem _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_v3 (W : Valuation τ sig (Elt Ideal)) :
    StableHlo.after (hostOps1 (F := Ideal)) W (Proc.devRef .tc main_v3) = W (Proc.devRef .tc main_v3) :=
  StableHlo.after_of_forall_not_mem _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_arg4 (W : Valuation τ sig (Elt Ideal)) :
    StableHlo.after (hostOps1 (F := Ideal)) W (Proc.devRef .tc main_arg4) = W (Proc.devRef .tc main_arg4) :=
  StableHlo.after_of_forall_not_mem _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_arg5 (W : Valuation τ sig (Elt Ideal)) :
    StableHlo.after (hostOps1 (F := Ideal)) W (Proc.devRef .tc main_arg5) = W (Proc.devRef .tc main_arg5) :=
  StableHlo.after_of_forall_not_mem _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep3_v28 (W : Valuation τ sig (Elt Ideal)) :
    StableHlo.after (hostOps3 (F := Ideal)) W (Proc.devRef .tc main_v28) = W (Proc.devRef .tc main_v28) :=
  StableHlo.after_of_forall_not_mem _ _ (List.forall_iff_forall_mem.mp (by
    simp only [hostOps3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep3_v13 (W : Valuation τ sig (Elt Ideal)) :
    StableHlo.after (hostOps3 (F := Ideal)) W (Proc.devRef .tc main_v13) = W (Proc.devRef .tc main_v13) :=
  StableHlo.after_of_forall_not_mem _ _ (List.forall_iff_forall_mem.mp (by
    simp only [hostOps3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.KVal

end
-- ==== Proof.KChain.lean ====
/-
  The kernel program's result as ONE function of its six arguments. The buffer contents at each boundary between the
  seven segments of the program (three stretches of host operations, four regions) are followed from the launch memory:
  a stretch writes its results as functions of what it reads and leaves every other buffer alone; a region leaves its
  output array at the whole-array function of the arrays it reads, its input arrays and every other buffer as entered.
    dis = rsqrt(deg),   h'₁ = (x·W₁)·dis,   h₁ = max(dis·agg(h'₁) + 2·dis·h'₁ + b₁, 0),
    h'₂ = (h₁·W₂)·dis,  out = dis·agg(h'₂) + 2·dis·h'₂ + b₂.
-/
import proofs.«164124_j50483045597683_2_alg».proof.Proof.KMatmulScale
import proofs.«164124_j50483045597683_2_alg».proof.Proof.KCombine
import proofs.«164124_j50483045597683_2_alg».proof.Proof.KHost

set_option maxRecDepth 16384

noncomputable section

namespace Cert.KernelIdeal.KVal

open Cert.KernelIdeal Cert.KernelIdeal.Gen Idealize.ShloMosaic Idealize.ShloMosaic.TcCoe Idealize.ShloMosaic.StableHlo
open Idealize.SL Idealize.SL.Sem

/-- Layer 1's scaled rows. -/
def hp1 (x : FVec Ideal S100000x128 .f32) (ei : IVec S2x1600000 32) (w1 : FVec Ideal S128x128 .f32) : S100000x128.Idx → EReal :=
  MS x w1 (disV ei)

/-- Layer 1's output, after the maximum with zero. -/
def h1 (x : FVec Ideal S100000x128 .f32) (ei : IVec S2x1600000 32) (w1 : FVec Ideal S128x128 .f32) (b1 : FVec Ideal S128 .f32) :
    S100000x128.Idx → EReal :=
  CBr (aggV (hp1 x ei w1) (srcV ei) (dstV ei)) (hp1 x ei w1) (disV ei) (biasV b1)

/-- Layer 2's scaled rows. -/
def hp2 (x : FVec Ideal S100000x128 .f32) (ei : IVec S2x1600000 32) (w1 : FVec Ideal S128x128 .f32) (b1 : FVec Ideal S128 .f32)
    (w2 : FVec Ideal S128x128 .f32) : S100000x128.Idx → EReal :=
  MS (h1 x ei w1 b1) w2 (disV ei)

/-- THE KERNEL PROGRAM'S RESULT as a function of its arguments. -/
def outK (x : FVec Ideal S100000x128 .f32) (ei : IVec S2x1600000 32) (w1 : FVec Ideal S128x128 .f32) (b1 : FVec Ideal S128 .f32)
    (w2 : FVec Ideal S128x128 .f32) (b2 : FVec Ideal S128 .f32) : S100000x128.Idx → EReal :=
  CB (aggV (hp2 x ei w1 b1 w2) (srcV ei) (dstV ei)) (hp2 x ei w1 b1 w2) (disV ei) (biasV b2)

section Chain

variable (m : (ℓ : Loc nD τ sig) → Buf (Elt Ideal) ℓ) (ρ : Dev nD → PrngReg) (c : Dev nD)

/-! ## After the first stretch -/

theorem W1_v13 : W1 m ρ c (Proc.devRef .tc main_v13) = disV (m ((c : Thread nD τ).loc main_arg1)) := after0_v13 (W0 m ρ c)
theorem W1_v1 : W1 m ρ c (Proc.devRef .tc main_v1) = srcV (m ((c : Thread nD τ).loc main_arg1)) := after0_v1 (W0 m ρ c)
theorem W1_v3 : W1 m ρ c (Proc.devRef .tc main_v3) = dstV (m ((c : Thread nD τ).loc main_arg1)) := after0_v3 (W0 m ρ c)
theorem W1_arg0 : W1 m ρ c (Proc.devRef .tc main_arg0) = m ((c : Thread nD τ).loc main_arg0) := keep0_arg0 (W0 m ρ c)
theorem W1_arg2 : W1 m ρ c (Proc.devRef .tc main_arg2) = m ((c : Thread nD τ).loc main_arg2) := keep0_arg2 (W0 m ρ c)
theorem W1_arg3 : W1 m ρ c (Proc.devRef .tc main_arg3) = m ((c : Thread nD τ).loc main_arg3) := keep0_arg3 (W0 m ρ c)
theorem W1_arg4 : W1 m ρ c (Proc.devRef .tc main_arg4) = m ((c : Thread nD τ).loc main_arg4) := keep0_arg4 (W0 m ρ c)
theorem W1_arg5 : W1 m ρ c (Proc.devRef .tc main_arg5) = m ((c : Thread nD τ).loc main_arg5) := keep0_arg5 (W0 m ρ c)

/-! ## After region 0 -/

theorem W2_v14 : W2 m ρ c (Proc.devRef .tc main_v14)
    = hp1 (m ((c : Thread nD τ).loc main_arg0)) (m ((c : Thread nD τ).loc main_arg1)) (m ((c : Thread nD τ).loc main_arg2)) := by
  refine (W2_arr m ρ c 3).trans ?_
  rw [final0 (V1 m ρ) c]
  show MS (W1 m ρ c (Proc.devRef .tc main_arg0)) (W1 m ρ c (Proc.devRef .tc main_arg2)) (W1 m ρ c (Proc.devRef .tc main_v13)) = _
  rw [W1_arg0, W1_arg2, W1_v13]
  rfl
theorem W2_v13 : W2 m ρ c (Proc.devRef .tc main_v13) = disV (m ((c : Thread nD τ).loc main_arg1)) :=
  ((W2_arr m ρ c 2).trans (((dat0 (V1 m ρ) c).arrAt_in 2 rfl _).trans (A_eq0 (V1 m ρ) c 2))).trans (W1_v13 m ρ c)
theorem W2_v1 : W2 m ρ c (Proc.devRef .tc main_v1) = srcV (m ((c : Thread nD τ).loc main_arg1)) :=
  (W2_of_ne m ρ c main_v1 (by decide)).trans (W1_v1 m ρ c)
theorem W2_v3 : W2 m ρ c (Proc.devRef .tc main_v3) = dstV (m ((c : Thread nD τ).loc main_arg1)) :=
  (W2_of_ne m ρ c main_v3 (by decide)).trans (W1_v3 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-! ## After the second stretch -/

theorem W3_v14 : W3 m ρ c (Proc.devRef .tc main_v14)
    = hp1 (m ((c : Thread nD τ).loc main_arg0)) (m ((c : Thread nD τ).loc main_arg1)) (m ((c : Thread nD τ).loc main_arg2)) :=
  (keep1_v14 (W2 m ρ c)).trans (W2_v14 m ρ c)
theorem W3_v13 : W3 m ρ c (Proc.devRef .tc main_v13) = disV (m ((c : Thread nD τ).loc main_arg1)) := (keep1_v13 (W2 m ρ c)).trans (W2_v13 m ρ c)
theorem W3_v1 : W3 m ρ c (Proc.devRef .tc main_v1) = srcV (m ((c : Thread nD τ).loc main_arg1)) := (keep1_v1 (W2 m ρ c)).trans (W2_v1 m ρ c)
theorem W3_v3 : W3 m ρ c (Proc.devRef .tc main_v3) = dstV (m ((c : Thread nD τ).loc main_arg1)) := (keep1_v3 (W2 m ρ c)).trans (W2_v3 m ρ c)
theorem W3_arg4 : W3 m ρ c (Proc.devRef .tc main_arg4) = m ((c : Thread nD τ).loc main_arg4) := (keep1_arg4 (W2 m ρ c)).trans (W2_arg4 m ρ c)
theorem W3_arg5 : W3 m ρ c (Proc.devRef .tc main_arg5) = m ((c : Thread nD τ).loc main_arg5) := (keep1_arg5 (W2 m ρ c)).trans (W2_arg5 m ρ c)
theorem W3_v25 : W3 m ρ c (Proc.devRef .tc main_v25)
    = aggV (hp1 (m ((c : Thread nD τ).loc main_arg0)) (m ((c : Thread nD τ).loc main_arg1)) (m ((c : Thread nD τ).loc main_arg2)))
        (srcV (m ((c : Thread nD τ).loc main_arg1))) (dstV (m ((c : Thread nD τ).loc main_arg1))) := by
  refine (after1_v25 (W2 m ρ c)).trans ?_
  rw [W2_v14, W2_v1, W2_v3]
theorem W3_v26 : W3 m ρ c (Proc.devRef .tc main_v26) = biasV (m ((c : Thread nD τ).loc main_arg3)) := by
  refine (after1_v26 (W2 m ρ c)).trans ?_
  rw [W2_arg3]

/-! ## After region 1 -/

theorem W4_v27 : W4 m ρ c (Proc.devRef .tc main_v27)
    = h1 (m ((c : Thread nD τ).loc main_arg0)) (m ((c : Thread nD τ).loc main_arg1)) (m ((c : Thread nD τ).loc main_arg2)) (m ((c : Thread nD τ).loc main_arg3)) := by
  refine (W4_arr m ρ c 4).trans ?_
  rw [final1 (V3 m ρ) c]
  show CBr (W3 m ρ c (Proc.devRef .tc main_v25)) (W3 m ρ c (Proc.devRef .tc main_v14)) (W3 m ρ c (Proc.devRef .tc main_v13)) (W3 m ρ c (Proc.devRef .tc main_v26)) = _
  rw [W3_v25, W3_v14, W3_v13, W3_v26]
  rfl
theorem W4_v13 : W4 m ρ c (Proc.devRef .tc main_v13) = disV (m ((c : Thread nD τ).loc main_arg1)) :=
  ((W4_arr m ρ c 2).trans (((dat1 (V3 m ρ) c).arrAt_in 2 rfl _).trans (A_eq1 (V3 m ρ) c 2))).trans (W3_v13 m ρ c)
theorem W4_v1 : W4 m ρ c (Proc.devRef .tc main_v1) = srcV (m ((c : Thread nD τ).loc main_arg1)) :=
  (W4_of_ne m ρ c main_v1 (by decide)).trans (W3_v1 m ρ c)
theorem W4_v3 : W4 m ρ c (Proc.devRef .tc main_v3) = dstV (m ((c : Thread nD τ).loc main_arg1)) :=
  (W4_of_ne m ρ c main_v3 (by decide)).trans (W3_v3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! ## After region 2 -/

theorem W5_v28 : W5 m ρ c (Proc.devRef .tc main_v28)
    = hp2 (m ((c : Thread nD τ).loc main_arg0)) (m ((c : Thread nD τ).loc main_arg1)) (m ((c : Thread nD τ).loc main_arg2)) (m ((c : Thread nD τ).loc main_arg3))
        (m ((c : Thread nD τ).loc main_arg4)) := by
  refine (W5_arr m ρ c 3).trans ?_
  rw [final2 (V4 m ρ) c]
  show MS (W4 m ρ c (Proc.devRef .tc main_v27)) (W4 m ρ c (Proc.devRef .tc main_arg4)) (W4 m ρ c (Proc.devRef .tc main_v13)) = _
  rw [W4_v27, W4_arg4, W4_v13]
  rfl
theorem W5_v13 : W5 m ρ c (Proc.devRef .tc main_v13) = disV (m ((c : Thread nD τ).loc main_arg1)) :=
  ((W5_arr m ρ c 2).trans (((dat2 (V4 m ρ) c).arrAt_in 2 rfl _).trans (A_eq2 (V4 m ρ) c 2))).trans (W4_v13 m ρ c)
theorem W5_v1 : W5 m ρ c (Proc.devRef .tc main_v1) = srcV (m ((c : Thread nD τ).loc main_arg1)) :=
  (W5_of_ne m ρ c main_v1 (by decide)).trans (W4_v1 m ρ c)
theorem W5_v3 : W5 m ρ c (Proc.devRef .tc main_v3) = dstV (m ((c : Thread nD τ).loc main_arg1)) :=
  (W5_of_ne m ρ c main_v3 (by decide)).trans (W4_v3 m ρ c)
theorem W5_arg5 : W5 m ρ c (Proc.devRef .tc main_arg5) = m ((c : Thread nD τ).loc main_arg5) :=
  (W5_of_ne m ρ c main_arg5 (by decide)).trans (W4_arg5 m ρ c)

/-! ## After the third stretch -/

theorem W6_v28 : W6 m ρ c (Proc.devRef .tc main_v28)
    = hp2 (m ((c : Thread nD τ).loc main_arg0)) (m ((c : Thread nD τ).loc main_arg1)) (m ((c : Thread nD τ).loc main_arg2)) (m ((c : Thread nD τ).loc main_arg3))
        (m ((c : Thread nD τ).loc main_arg4)) :=
  (keep3_v28 (W5 m ρ c)).trans (W5_v28 m ρ c)
theorem W6_v13 : W6 m ρ c (Proc.devRef .tc main_v13) = disV (m ((c : Thread nD τ).loc main_arg1)) := (keep3_v13 (W5 m ρ c)).trans (W5_v13 m ρ c)
theorem W6_v39 : W6 m ρ c (Proc.devRef .tc main_v39)
    = aggV (hp2 (m ((c : Thread nD τ).loc main_arg0)) (m ((c : Thread nD τ).loc main_arg1)) (m ((c : Thread nD τ).loc main_arg2)) (m ((c : Thread nD τ).loc main_arg3))
          (m ((c : Thread nD τ).loc main_arg4)))
        (srcV (m ((c : Thread nD τ).loc main_arg1))) (dstV (m ((c : Thread nD τ).loc main_arg1))) := by
  refine (after3_v39 (W5 m ρ c)).trans ?_
  rw [W5_v28, W5_v1, W5_v3]
theorem W6_v40 : W6 m ρ c (Proc.devRef .tc main_v40) = biasV (m ((c : Thread nD τ).loc main_arg5)) := by
  refine (after3_v40 (W5 m ρ c)).trans ?_
  rw [W5_arg5]

/-! ## After region 3: the result -/

/-- THE RESULT BUFFER at the end of the run is `outK` of the arguments as launched. -/
theorem W7_v41 : W7 m ρ c (Proc.devRef .tc main_v41)
    = outK (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (W7_arr m ρ c 4).trans ?_
  rw [final3 (V6 m ρ) c]
  show CB (W6 m ρ c (Proc.devRef .tc main_v39)) (W6 m ρ c (Proc.devRef .tc main_v28)) (W6 m ρ c (Proc.devRef .tc main_v13)) (W6 m ρ c (Proc.devRef .tc main_v40)) = _
  rw [W6_v39, W6_v28, W6_v13, W6_v40]
  rfl

end Chain

end Cert.KernelIdeal.KVal

end
-- ==== Proof.LibScatterRead.lean ====
/-
  An accumulating scatter (each update added onto the operand element its start index names, an update
  whose start index names no element dropped) and a gather (each result element the operand element its
  start index names, the start index clamped into range), read at an index, for the dimension numbers of
  an edge list scattered into, or gathered from, an array of nodes: one start index per edge, or a pair.
-/
import Idealize.ShloMosaic.Lib.ValueIdx

open scoped BigOperators

namespace Cert.LibScatterRead

open Idealize.ShloMosaic Idealize.ShloMosaic.ValueIdx

/-! ## Generalities -/

/-- An update lands on operand index `i` exactly when, on every axis, its start (read signed, not
    clamped) plus its window coordinate is `i`'s coordinate: a sum that leaves `[0, size)` on some axis
    drops the update, and no coordinate of `i` is outside that range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- Rank-1 indices are the coordinates. -/
def ix1Equiv (n : Nat) : Fin n ≃ (⟨1, ![n]⟩ : Shape).Idx where
  toFun := ix1
  invFun j := j 0
  left_inv _ := rfl
  right_inv j := (eq_ix1 j).symm

/-- Indices of an `[n, 1]` array are the first coordinates. -/
def ix2Equiv1 (n : Nat) : Fin n ≃ (⟨2, ![n, 1]⟩ : Shape).Idx where
  toFun e := ix2 e 0
  invFun j := j 0
  left_inv _ := rfl
  right_inv j := by
    funext a
    refine Fin.ext ?_
    match a with
    | ⟨0, _⟩ => rfl
    | ⟨1, _⟩ =>
      show (0 : ℕ) = (j 1).val
      have := idx2_lt1 j
      omega

/-- A sum over the members of a finite type that satisfy `P`, carried along a bijection. -/
theorem sum_filter_equiv {α β M : Type*} [Fintype α] [Fintype β] [AddCommMonoid M] (σ : α ≃ β)
    (P : β → Prop) [DecidablePred P] (f : β → M) :
    ∑ b ∈ Finset.univ.filter P, f b = ∑ a ∈ Finset.univ.filter (fun a => P (σ a)), f (σ a) := by
  rw [Finset.sum_filter, Finset.sum_filter, ← Equiv.sum_comp σ]

/-! ## One start index per edge, into a rank-1 array of nodes -/

section Scatter1
variable {N E w : Nat} (wf : ScatterDims.WF ⟨1, ![N]⟩ ⟨2, ![E, 1]⟩ ⟨1, ![E]⟩ [] [0] [0] 1)

/-- `x.at[idx].add(upd)` for `x : [N]`, `idx : [E, 1]`, `upd : [E]`: no window axes, the operand's one
    axis inserted and named by the start index's one component. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s start on the node axis is `idx[e, 0]` read signed. -/
theorem scatter1_start (e : Fin E) (idx : IVec ⟨2, ![E, 1]⟩ w) :
    (scatter1Dims N E wf).start (ix1 e) idx 0 = (idx (ix2 e 0)).toInt := by
  unfold ScatterDims.start
  rw [dif_pos (show (0 : Fin 1) ∈ (scatter1Dims N E wf).scatterDimsToOperandDims from List.mem_singleton.mpr rfl)]
  have hsi : (scatter1Dims N E wf).siIdx (ix1 e) ⟨List.idxOf (0 : Fin 1) (scatter1Dims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window: the window coordinate on the node axis is `0`. -/
theorem scatter1_window (j : (⟨1, ![E]⟩ : Shape).Idx) : (scatter1Dims N E wf).window j 0 = 0 := by
  unfold ScatterDims.window
  have hk : (0 : Fin 1) ∉ (scatter1Dims N E wf).sKept := by
    show (0 : Fin 1) ∉ ([] : List (Fin 1))
    exact List.not_mem_nil
  rw [dif_neg hk]

/-- Edge `e` lands on node `i` exactly when `idx[e, 0]`, read signed, is `i`. -/
theorem scatter1_resultIdx?_iff (e : Fin E) (i : Fin N) (idx : IVec ⟨2, ![E, 1]⟩ w) :
    (scatter1Dims N E wf).resultIdx? (ix1 e) idx = some (ix1 i) ↔ (idx (ix2 e 0)).toInt = (i.val : ℤ) := by
  rw [resultIdx?_eq_some_iff]
  constructor
  · intro h
    have := h 0
    rw [scatter1_start, scatter1_window, Nat.cast_zero, add_zero] at this
    exact this
  · intro h a
    obtain rfl : a = 0 := Subsingleton.elim _ _
    rw [scatter1_start, scatter1_window, Nat.cast_zero, add_zero]
    exact h

/-- THE SCATTER-ADD READ AT NODE `i`: the operand there plus the updates of the edges whose start index is `i`. -/
theorem scatterAdd1_apply {φ : FTy} (x : FVec Ideal ⟨1, ![N]⟩ φ) (idx : IVec ⟨2, ![E, 1]⟩ w)
    (upd : FVec Ideal ⟨1, ![E]⟩ φ) (i : Fin N) :
    Host.scatterAdd (F := Ideal) (scatter1Dims N E wf) x idx upd (ix1 i)
      = x (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter1_resultIdx?_iff wf e i idx) fun _ _ => rfl

/-- The same read when the start indices are known to name nodes: `col e` is edge `e`'s node. -/
theorem scatterAdd1_apply_of_nodes {φ : FTy} (x : FVec Ideal ⟨1, ![N]⟩ φ) (idx : IVec ⟨2, ![E, 1]⟩ w)
    (upd : FVec Ideal ⟨1, ![E]⟩ φ) (col : Fin E → Fin N)
    (hcol : ∀ e, (idx (ix2 e 0)).toInt = ((col e).val : ℤ)) (i : Fin N) :
    Host.scatterAdd (F := Ideal) (scatter1Dims N E wf) x idx upd (ix1 i)
      = x (ix1 i) + ∑ e ∈ Finset.univ.filter (fun e : Fin E => col e = i), upd (ix1 e) := by
  rw [scatterAdd1_apply]
  congr 1
  refine Finset.sum_congr (Finset.filter_congr fun e _ => ?_) fun _ _ => rfl
  rw [hcol e, Nat.cast_inj, Fin.val_inj]

end Scatter1

/-! ## One start index per edge, into an `[N, 1]` array of nodes: a window axis of size 1 -/

section Scatter1Col
variable {N E w : Nat} (wf : ScatterDims.WF ⟨2, ![N, 1]⟩ ⟨2, ![E, 1]⟩ ⟨2, ![E, 1]⟩ [1] [0] [0] 1)

/-- `x.at[idx].add(upd)` for `x : [N, 1]`, `idx : [E, 1]`, `upd : [E, 1]`: the updates' trailing axis is a
    window over the operand's trailing axis, the operand's leading axis inserted and named by the start
    index's one component. -/
abbrev scatter1ColDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Edge `e`'s start on the node axis is `idx[e, 0]` read signed. -/
theorem scatter1Col_start0 (e : Fin E) (idx : IVec ⟨2, ![E, 1]⟩ w) :
    (scatter1ColDims N E wf).start (ix2 e 0) idx 0 = (idx (ix2 e 0)).toInt := by
  unfold ScatterDims.start
  rw [dif_pos (show (0 : Fin 2) ∈ (scatter1ColDims N E wf).scatterDimsToOperandDims from List.mem_singleton.mpr rfl)]
  have hsi : (scatter1ColDims N E wf).siIdx (ix2 e 0) ⟨List.idxOf (0 : Fin 2) (scatter1ColDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the trailing axis: the start there is `0`. -/
theorem scatter1Col_start1 (j : (⟨2, ![E, 1]⟩ : Shape).Idx) (idx : IVec ⟨2, ![E, 1]⟩ w) :
    (scatter1ColDims N E wf).start j idx 1 = 0 := by
  unfold ScatterDims.start
  have h : (1 : Fin 2) ∉ (scatter1ColDims N E wf).scatterDimsToOperandDims := by
    show (1 : Fin 2) ∉ ([0] : List (Fin 2))
    decide
  rw [dif_neg h]

/-- The node axis is inserted: the window coordinate there is `0`. -/
theorem scatter1Col_window0 (j : (⟨2, ![E, 1]⟩ : Shape).Idx) : (scatter1ColDims N E wf).window j 0 = 0 := by
  unfold ScatterDims.window
  have hk : (0 : Fin 2) ∉ (scatter1ColDims N E wf).sKept := by
    show (0 : Fin 2) ∉ ([1] : List (Fin 2))
    decide
  rw [dif_neg hk]

/-- The window coordinate on the trailing axis is the update's trailing coordinate, `0`. -/
theorem scatter1Col_window1 (e : Fin E) : (scatter1ColDims N E wf).window (ix2 e 0) 1 = 0 := by
  unfold ScatterDims.window
  have hk : (1 : Fin 2) ∈ (scatter1ColDims N E wf).sKept := by
    show (1 : Fin 2) ∈ ([1] : List (Fin 2))
    decide
  rw [dif_pos hk]
  rfl

/-- Update `(e, 0)` lands on `(i, 0)` exactly when `idx[e, 0]`, read signed, is `i`. -/
theorem scatter1Col_resultIdx?_iff (e : Fin E) (i : Fin N) (idx : IVec ⟨2, ![E, 1]⟩ w) :
    (scatter1ColDims N E wf).resultIdx? (ix2 e 0) idx = some (ix2 i 0) ↔ (idx (ix2 e 0)).toInt = (i.val : ℤ) := by
  rw [resultIdx?_eq_some_iff]
  constructor
  · intro h
    have := h 0
    rw [scatter1Col_start0, scatter1Col_window0, Nat.cast_zero, add_zero] at this
    exact this
  · intro h a
    match a with
    | ⟨0, _⟩ =>
      show (scatter1ColDims N E wf).start (ix2 e 0) idx 0 + ((scatter1ColDims N E wf).window (ix2 e 0) 0 : ℤ) = (i.val : ℤ)
      rw [scatter1Col_start0, scatter1Col_window0, Nat.cast_zero, add_zero]
      exact h
    | ⟨1, _⟩ =>
      show (scatter1ColDims N E wf).start (ix2 e 0) idx 1 + ((scatter1ColDims N E wf).window (ix2 e 0) 1 : ℤ) = ((0 : ℕ) : ℤ)
      rw [scatter1Col_start1, scatter1Col_window1, Nat.cast_zero, add_zero]

/-- THE SCATTER-ADD READ AT `(i, 0)`: the operand there plus the updates `(e, 0)` of the edges whose start index is `i`. -/
theorem scatterAdd1Col_apply {φ : FTy} (x : FVec Ideal ⟨2, ![N, 1]⟩ φ) (idx : IVec ⟨2, ![E, 1]⟩ w)
    (upd : FVec Ideal ⟨2, ![E, 1]⟩ φ) (i : Fin N) :
    Host.scatterAdd (F := Ideal) (scatter1ColDims N E wf) x idx upd (ix2 i 0)
      = x (ix2 i 0) + ∑ e ∈ Finset.univ.filter (fun e : Fin E => (idx (ix2 e 0)).toInt = (i.val : ℤ)), upd (ix2 e 0) := by
  unfold Host.scatterAdd
  rw [Ideal.hostScatterAdd_def]
  unfold Ideal.hostScatterAdd
  congr 1
  rw [sum_filter_equiv (ix2Equiv1 E)]
  exact Finset.sum_congr (Finset.filter_congr fun e _ => scatter1Col_resultIdx?_iff wf e i idx) fun _ _ => rfl

/-- The same read when the start indices are known to name nodes: `col e` is edge `e`'s node. -/
theorem scatterAdd1Col_apply_of_nodes {φ : FTy} (x : FVec Ideal ⟨2, ![N, 1]⟩ φ) (idx : IVec ⟨2, ![E, 1]⟩ w)
    (upd : FVec Ideal ⟨2, ![E, 1]⟩ φ) (col : Fin E → Fin N)
    (hcol : ∀ e, (idx (ix2 e 0)).toInt = ((col e).val : ℤ)) (i : Fin N) :
    Host.scatterAdd (F := Ideal) (scatter1ColDims N E wf) x idx upd (ix2 i 0)
      = x (ix2 i 0) + ∑ e ∈ Finset.univ.filter (fun e : Fin E => col e = i), upd (ix2 e 0) := by
  rw [scatterAdd1Col_apply]
  congr 1
  refine Finset.sum_congr (Finset.filter_congr fun e _ => ?_) fun _ _ => rfl
  rw [hcol e, Nat.cast_inj, Fin.val_inj]

end Scatter1Col

/-! ## A pair of start indices per edge, into a rank-2 array: the dense adjacency accumulation -/

section Scatter2
variable {N0 N1 E w : Nat} (wf : ScatterDims.WF ⟨2, ![N0, N1]⟩ ⟨2, ![E, 2]⟩ ⟨1, ![E]⟩ [] [0, 1] [0, 1] 1)

/-- `x.at[idx[:, 0], idx[:, 1]].add(upd)` for `x : [N0, N1]`, `idx : [E, 2]`, `upd : [E]`: no window axes, both
    operand axes inserted, the start index's two components naming them in order. -/
abbrev scatter2Dims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- Edge `e`'s start on the first axis is `idx[e, 0]` read signed. -/
theorem scatter2_start0 (e : Fin E) (idx : IVec ⟨2, ![E, 2]⟩ w) :
    (scatter2Dims N0 N1 E wf).start (ix1 e) idx 0 = (idx (ix2 e 0)).toInt := by
  unfold ScatterDims.start
  have hm : (0 : Fin 2) ∈ (scatter2Dims N0 N1 E wf).scatterDimsToOperandDims := by
    show (0 : Fin 2) ∈ ([0, 1] : List (Fin 2))
    decide
  rw [dif_pos hm]
  have hsi : (scatter2Dims N0 N1 E wf).siIdx (ix1 e) ⟨List.idxOf (0 : Fin 2) (scatter2Dims N0 N1 E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Edge `e`'s start on the second axis is `idx[e, 1]` read signed. -/
theorem scatter2_start1 (e : Fin E) (idx : IVec ⟨2, ![E, 2]⟩ w) :
    (scatter2Dims N0 N1 E wf).start (ix1 e) idx 1 = (idx (ix2 e 1)).toInt := by
  unfold ScatterDims.start
  have hm : (1 : Fin 2) ∈ (scatter2Dims N0 N1 E wf).scatterDimsToOperandDims := by
    show (1 : Fin 2) ∈ ([0, 1] : List (Fin 2))
    decide
  rw [dif_pos hm]
  have hsi : (scatter2Dims N0 N1 E wf).siIdx (ix1 e) ⟨List.idxOf (1 : Fin 2) (scatter2Dims N0 N1 E wf).scatterDimsToOperandDims,
      List.idxOf_lt_length_iff.2 hm⟩ = ix2 e 1 := by
    funext b; refine Fin.ext ?_
    match b with
    | ⟨0, _⟩ => rfl
    | ⟨1, _⟩ => rfl
  rw [hsi]

/-- There is no window: the window coordinate is `0` on both axes. -/
theorem scatter2_window (j : (⟨1, ![E]⟩ : Shape).Idx) (a : Fin 2) : (scatter2Dims N0 N1 E wf).window j a = 0 := by
  unfold ScatterDims.window
  have hk : a ∉ (scatter2Dims N0 N1 E wf).sKept := by
    show a ∉ ([] : List (Fin 2))
    exact List.not_mem_nil
  rw [dif_neg hk]

/-- Edge `e` lands on `(j, i)` exactly when `idx[e, 0]` is `j` and `idx[e, 1]` is `i`, both read signed. -/
theorem scatter2_resultIdx?_iff (e : Fin E) (j : Fin N0) (i : Fin N1) (idx : IVec ⟨2, ![E, 2]⟩ w) :
    (scatter2Dims N0 N1 E wf).resultIdx? (ix1 e) idx = some (ix2 j i)
      ↔ (idx (ix2 e 0)).toInt = (j.val : ℤ) ∧ (idx (ix2 e 1)).toInt = (i.val : ℤ) := by
  rw [resultIdx?_eq_some_iff]
  constructor
  · intro h
    have h0 := h 0
    have h1 := h 1
    rw [scatter2_start0, scatter2_window, Nat.cast_zero, add_zero] at h0
    rw [scatter2_start1, scatter2_window, Nat.cast_zero, add_zero] at h1
    exact ⟨h0, h1⟩
  · rintro ⟨h0, h1⟩ a
    match a with
    | ⟨0, _⟩ =>
      show (scatter2Dims N0 N1 E wf).start (ix1 e) idx 0 + ((scatter2Dims N0 N1 E wf).window (ix1 e) 0 : ℤ) = (j.val : ℤ)
      rw [scatter2_start0, scatter2_window, Nat.cast_zero, add_zero]
      exact h0
    | ⟨1, _⟩ =>
      show (scatter2Dims N0 N1 E wf).start (ix1 e) idx 1 + ((scatter2Dims N0 N1 E wf).window (ix1 e) 1 : ℤ) = (i.val : ℤ)
      rw [scatter2_start1, scatter2_window, Nat.cast_zero, add_zero]
      exact h1

/-- THE SCATTER-ADD READ AT `(j, i)`: the operand there plus the updates of the edges whose pair of start
    indices is `(j, i)`. -/
theorem scatterAdd2_apply {φ : FTy} (x : FVec Ideal ⟨2, ![N0, N1]⟩ φ) (idx : IVec ⟨2, ![E, 2]⟩ w)
    (upd : FVec Ideal ⟨1, ![E]⟩ φ) (j : Fin N0) (i : Fin N1) :
    Host.scatterAdd (F := Ideal) (scatter2Dims N0 N1 E wf) x idx upd (ix2 j i)
      = x (ix2 j i) + ∑ e ∈ Finset.univ.filter (fun e : Fin E =>
          (idx (ix2 e 0)).toInt = (j.val : ℤ) ∧ (idx (ix2 e 1)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter2_resultIdx?_iff wf e j i idx) fun _ _ => rfl

/-- The same read when both start indices are known to name nodes: `row e` and `col e` are edge `e`'s two
    nodes, and the edges summed are those with `row e = j ∧ col e = i`. -/
theorem scatterAdd2_apply_of_nodes {φ : FTy} (x : FVec Ideal ⟨2, ![N0, N1]⟩ φ) (idx : IVec ⟨2, ![E, 2]⟩ w)
    (upd : FVec Ideal ⟨1, ![E]⟩ φ) (row : Fin E → Fin N0) (col : Fin E → Fin N1)
    (hrow : ∀ e, (idx (ix2 e 0)).toInt = ((row e).val : ℤ)) (hcol : ∀ e, (idx (ix2 e 1)).toInt = ((col e).val : ℤ))
    (j : Fin N0) (i : Fin N1) :
    Host.scatterAdd (F := Ideal) (scatter2Dims N0 N1 E wf) x idx upd (ix2 j i)
      = x (ix2 j i) + ∑ e ∈ Finset.univ.filter (fun e : Fin E => row e = j ∧ col e = i), upd (ix1 e) := by
  rw [scatterAdd2_apply]
  congr 1
  refine Finset.sum_congr (Finset.filter_congr fun e _ => ?_) fun _ _ => rfl
  rw [hrow e, hcol e, Nat.cast_inj, Nat.cast_inj, Fin.val_inj, Fin.val_inj]

end Scatter2

/-! ## Clamped start indices -/

/-- The node a signed start index names once clamped into `[0, N − 1]`, as a gather reads it. -/
def clampIdx {N : Nat} (hN : 0 < N) (z : ℤ) : Fin N := ⟨min z.toNat (N - 1), by omega⟩

/-- Inside `[0, N)` the clamp is the identity. -/
theorem clampIdx_of_inRange {N : Nat} (hN : 0 < N) {z : ℤ} (h0 : 0 ≤ z) (h1 : z < N) :
    clampIdx hN z = ⟨z.toNat, by omega⟩ := by
  refine Fin.ext ?_
  show min z.toNat (N - 1) = z.toNat
  omega

/-- A signed start index is node `j` (a scatter's landing condition) exactly when it is inside `[0, N)` and
    clamps to `j` (a gather's reading). -/
theorem eq_coe_iff_clampIdx {N : Nat} (hN : 0 < N) (z : ℤ) (j : Fin N) :
    z = (j.val : ℤ) ↔ (0 ≤ z ∧ z < N) ∧ clampIdx hN z = j := by
  have hj := j.isLt
  constructor
  · intro h
    refine ⟨⟨by omega, by omega⟩, Fin.ext ?_⟩
    show min z.toNat (N - 1) = j.val
    omega
  · rintro ⟨⟨h0, h1⟩, h⟩
    have := congrArg Fin.val h
    change min z.toNat (N - 1) = j.val at this
    omega

/-! ## Gathers: one start index per edge -/

section Gather1
variable {N E w : Nat} {α : Type} (wf : GatherDims.WF ⟨1, ![N]⟩ ⟨2, ![E, 1]⟩ ⟨1, ![E]⟩ [] [0] [] [0] [] 1 ![1])

/-- `x[idx]` for `x : [N]`, `idx : [E, 1]`: slices of one element, the operand's axis collapsed and named by
    the start index's one component. -/
abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT EDGE `e`: the operand at `idx[e, 0]`, read signed and clamped into `[0, N − 1]`. -/
theorem gather1_apply (hN : 0 < N) (x : (⟨1, ![N]⟩ : Shape).Idx → α) (idx : IVec ⟨2, ![E, 1]⟩ w) (e : Fin E) :
    Host.gather (gather1Dims N E wf) x idx (ix1 e) = x (ix1 (clampIdx hN (idx (ix2 e 0)).toInt)) := by
  unfold Host.gather
  congr 1
  funext a
  obtain rfl : a = 0 := Subsingleton.elim _ _
  refine Fin.ext ?_
  show (gather1Dims N E wf).start (ix1 e) idx 0 + (gather1Dims N E wf).batchCoord (ix1 e) 0
    + (gather1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx (ix1 e) ⟨List.idxOf (0 : Fin 1) (gather1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather read at edge `e` when `idx[e, 0]` names a node: the operand at that node. -/
theorem gather1_apply_of_inRange (x : (⟨1, ![N]⟩ : Shape).Idx → α) (idx : IVec ⟨2, ![E, 1]⟩ w) (e : Fin E)
    (h0 : 0 ≤ (idx (ix2 e 0)).toInt) (h1 : (idx (ix2 e 0)).toInt < N) :
    Host.gather (gather1Dims N E wf) x idx (ix1 e) = x (ix1 ⟨(idx (ix2 e 0)).toInt.toNat, by omega⟩) := by
  have hN : 0 < N := by omega
  rw [gather1_apply wf hN, clampIdx_of_inRange hN h0 h1]

end Gather1

section Gather1Col
variable {N E w : Nat} {α : Type}
  (wf : GatherDims.WF ⟨2, ![N, 1]⟩ ⟨2, ![E, 1]⟩ ⟨2, ![E, 1]⟩ [1] [0] [] [0] [] 1 ![1, 1])

/-- `x[idx]` for `x : [N, 1]`, `idx : [E, 1]`: slices `[1, 1]`, the operand's leading axis collapsed and named by
    the start index's one component, its trailing axis the result's offset axis. -/
abbrev gather1ColDims (N E : Nat)
    (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- THE GATHER READ AT `(e, 0)`: the operand at `(idx[e, 0], 0)`, the start index read signed and clamped into
    `[0, N − 1]`. -/
theorem gather1Col_apply (hN : 0 < N) (x : (⟨2, ![N, 1]⟩ : Shape).Idx → α) (idx : IVec ⟨2, ![E, 1]⟩ w) (e : Fin E) :
    Host.gather (gather1ColDims N E wf) x idx (ix2 e 0) = x (ix2 (clampIdx hN (idx (ix2 e 0)).toInt) 0) := by
  unfold Host.gather
  congr 1
  funext a
  refine Fin.ext ?_
  match a with
  | ⟨0, _⟩ =>
    show (gather1ColDims N E wf).start (ix2 e 0) idx 0 + (gather1ColDims N E wf).batchCoord (ix2 e 0) 0
      + (gather1ColDims N E wf).offCoord (ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather1ColDims N E wf).startIndexMap from List.mem_singleton.mpr rfl)]
    have hsi : (gather1ColDims N E wf).siIdx (ix2 e 0) ⟨List.idxOf (0 : Fin 2) (gather1ColDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gather1ColDims N E wf).start (ix2 e 0) idx 1 + (gather1ColDims N E wf).batchCoord (ix2 e 0) 1
      + (gather1ColDims N E wf).offCoord (ix2 e 0) 1 = 0
    have hs : (gather1ColDims N E wf).start (ix2 e 0) idx 1 = 0 := by
      unfold GatherDims.start
      have h : (1 : Fin 2) ∉ (gather1ColDims N E wf).startIndexMap := by
        show (1 : Fin 2) ∉ ([0] : List (Fin 2))
        decide
      rw [dif_neg h]
    have ho : (gather1ColDims N E wf).offCoord (ix2 e 0) 1 = 0 := by
      unfold GatherDims.offCoord
      have hk : (1 : Fin 2) ∈ (gather1ColDims N E wf).sKept := by
        show (1 : Fin 2) ∈ ([1] : List (Fin 2))
        decide
      rw [dif_pos hk]
      rfl
    rw [hs, GatherDims.batchCoord_eq_zero _ _ _ List.not_mem_nil, ho]

/-- The gather read at `(e, 0)` when `idx[e, 0]` names a node: the operand at `(that node, 0)`. -/
theorem gather1Col_apply_of_inRange (x : (⟨2, ![N, 1]⟩ : Shape).Idx → α) (idx : IVec ⟨2, ![E, 1]⟩ w) (e : Fin E)
    (h0 : 0 ≤ (idx (ix2 e 0)).toInt) (h1 : (idx (ix2 e 0)).toInt < N) :
    Host.gather (gather1ColDims N E wf) x idx (ix2 e 0) = x (ix2 ⟨(idx (ix2 e 0)).toInt.toNat, by omega⟩ 0) := by
  have hN : 0 < N := by omega
  rw [gather1Col_apply wf hN, clampIdx_of_inRange hN h0 h1]

end Gather1Col

end Cert.LibScatterRead
-- ==== Proof.LibRowScatter.lean ====
/-
  The row forms of an accumulating scatter and of a gather, read at an index: an array of `N` nodes with `C`
  channels each, and one start index per edge. A scatter adds edge `e`'s whole row of `C` updates onto the
  row of the node its start index names (dropped when it names none); a gather copies, for edge `e`, the whole
  row of the node its start index names once clamped into range. In both the channel coordinate is carried
  through unchanged, so at channel `c` each is the rank-1 statement about column `c`.
-/
import proofs.«164124_j50483045597683_2_alg».proof.Proof.LibScatterRead

open scoped BigOperators

namespace Cert.LibRowScatter

open Idealize.ShloMosaic Idealize.ShloMosaic.ValueIdx Cert.LibScatterRead

/-! ## Scatter of rows -/

section ScatterRow
variable {N C E w : Nat} (wf : ScatterDims.WF ⟨2, ![N, C]⟩ ⟨2, ![E, 1]⟩ ⟨2, ![E, C]⟩ [1] [0] [0] 1)

/-- `x.at[idx].add(upd)` for `x : [N, C]`, `idx : [E, 1]`, `upd : [E, C]`: the updates' trailing axis is a
    window over the operand's channel axis, the operand's node axis inserted and named by the start
    index's one component. -/
abbrev scatterRowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, c)`'s start on the node axis is `idx[e, 0]` read signed, whatever the channel. -/
theorem scatterRow_start0 (e : Fin E) (c : Fin C) (idx : IVec ⟨2, ![E, 1]⟩ w) :
    (scatterRowDims N C E wf).start (ix2 e c) idx 0 = (idx (ix2 e 0)).toInt := by
  unfold ScatterDims.start
  rw [dif_pos (show (0 : Fin 2) ∈ (scatterRowDims N C E wf).scatterDimsToOperandDims from List.mem_singleton.mpr rfl)]
  have hsi : (scatterRowDims N C E wf).siIdx (ix2 e c) ⟨List.idxOf (0 : Fin 2) (scatterRowDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the channel axis: the start there is `0`. -/
theorem scatterRow_start1 (j : (⟨2, ![E, C]⟩ : Shape).Idx) (idx : IVec ⟨2, ![E, 1]⟩ w) :
    (scatterRowDims N C E wf).start j idx 1 = 0 := by
  unfold ScatterDims.start
  have h : (1 : Fin 2) ∉ (scatterRowDims N C E wf).scatterDimsToOperandDims := by
    show (1 : Fin 2) ∉ ([0] : List (Fin 2))
    decide
  rw [dif_neg h]

/-- The node axis is inserted: the window coordinate there is `0`. -/
theorem scatterRow_window0 (j : (⟨2, ![E, C]⟩ : Shape).Idx) : (scatterRowDims N C E wf).window j 0 = 0 := by
  unfold ScatterDims.window
  have hk : (0 : Fin 2) ∉ (scatterRowDims N C E wf).sKept := by
    show (0 : Fin 2) ∉ ([1] : List (Fin 2))
    decide
  rw [dif_neg hk]

/-- The window coordinate on the channel axis is the update's channel. -/
theorem scatterRow_window1 (e : Fin E) (c : Fin C) : (scatterRowDims N C E wf).window (ix2 e c) 1 = c.val := by
  unfold ScatterDims.window
  have hk : (1 : Fin 2) ∈ (scatterRowDims N C E wf).sKept := by
    show (1 : Fin 2) ∈ ([1] : List (Fin 2))
    decide
  rw [dif_pos hk]
  rfl

/-- Update `(e, c')` lands on `(i, c)` exactly when `idx[e, 0]`, read signed, is `i` and the channels agree. -/
theorem scatterRow_resultIdx?_iff (e : Fin E) (c' c : Fin C) (i : Fin N) (idx : IVec ⟨2, ![E, 1]⟩ w) :
    (scatterRowDims N C E wf).resultIdx? (ix2 e c') idx = some (ix2 i c)
      ↔ (idx (ix2 e 0)).toInt = (i.val : ℤ) ∧ c' = c := by
  rw [resultIdx?_eq_some_iff]
  constructor
  · intro h
    have h0 := h 0
    have h1 := h 1
    rw [scatterRow_start0, scatterRow_window0, Nat.cast_zero, add_zero] at h0
    rw [scatterRow_start1, scatterRow_window1, zero_add] at h1
    refine ⟨h0, Fin.ext ?_⟩
    have h1' : ((c'.val : ℕ) : ℤ) = ((c.val : ℕ) : ℤ) := h1
    exact_mod_cast h1'
  · rintro ⟨h0, rfl⟩ a
    match a with
    | ⟨0, _⟩ =>
      show (scatterRowDims N C E wf).start (ix2 e c') idx 0 + ((scatterRowDims N C E wf).window (ix2 e c') 0 : ℤ) = (i.val : ℤ)
      rw [scatterRow_start0, scatterRow_window0, Nat.cast_zero, add_zero]
      exact h0
    | ⟨1, _⟩ =>
      show (scatterRowDims N C E wf).start (ix2 e c') idx 1 + ((scatterRowDims N C E wf).window (ix2 e c') 1 : ℤ) = ((c'.val : ℕ) : ℤ)
      rw [scatterRow_start1, scatterRow_window1, zero_add]

/-- THE ROW SCATTER-ADD READ AT `(i, c)`: the operand there plus channel `c` of the rows of the edges whose
    start index is `i`. -/
theorem scatterAddRow_apply {φ : FTy} (x : FVec Ideal ⟨2, ![N, C]⟩ φ) (idx : IVec ⟨2, ![E, 1]⟩ w)
    (upd : FVec Ideal ⟨2, ![E, C]⟩ φ) (i : Fin N) (c : Fin C) :
    Host.scatterAdd (F := Ideal) (scatterRowDims N C E wf) x idx upd (ix2 i c)
      = x (ix2 i c) + ∑ e ∈ Finset.univ.filter (fun e : Fin E => (idx (ix2 e 0)).toInt = (i.val : ℤ)), upd (ix2 e c) := by
  unfold Host.scatterAdd
  rw [Ideal.hostScatterAdd_def]
  unfold Ideal.hostScatterAdd
  congr 1
  rw [Finset.sum_filter, sum_idx2, Finset.sum_filter]
  refine Finset.sum_congr rfl fun e _ => ?_
  have h : ∀ c' : Fin C,
      (if (scatterRowDims N C E wf).resultIdx? (ix2 e c') idx = some (ix2 i c) then upd (ix2 e c') else 0)
        = if c' = c then (if (idx (ix2 e 0)).toInt = (i.val : ℤ) then upd (ix2 e c) else 0) else 0 := by
    intro c'
    by_cases hc : c' = c
    · subst hc
      rw [if_pos rfl]
      exact if_congr ((scatterRow_resultIdx?_iff wf e c' c' i idx).trans (and_iff_left rfl)) rfl rfl
    · rw [if_neg hc, if_neg]
      intro hr
      exact hc ((scatterRow_resultIdx?_iff wf e c' c i idx).mp hr).2
  rw [Finset.sum_congr rfl fun c' _ => h c', Finset.sum_ite_eq' Finset.univ c]
  simp only [Finset.mem_univ, if_true]

end ScatterRow

/-! ## Gather of rows -/

section GatherRow
variable {N C E w : Nat} {α : Type}
  (wf : GatherDims.WF ⟨2, ![N, C]⟩ ⟨2, ![E, 1]⟩ ⟨2, ![E, C]⟩ [1] [0] [] [0] [] 1 ![1, C])

/-- `x[idx]` for `x : [N, C]`, `idx : [E, 1]`: slices `[1, C]`, the operand's node axis collapsed and named by
    the start index's one component, its channel axis the result's offset axis. -/
abbrev gatherRowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at `(idx[e, 0], c)`, the start index read signed and clamped
    into `[0, N − 1]`. -/
theorem gatherRow_apply (hN : 0 < N) (x : (⟨2, ![N, C]⟩ : Shape).Idx → α) (idx : IVec ⟨2, ![E, 1]⟩ w)
    (e : Fin E) (c : Fin C) :
    Host.gather (gatherRowDims N C E wf) x idx (ix2 e c) = x (ix2 (clampIdx hN (idx (ix2 e 0)).toInt) c) := by
  unfold Host.gather
  congr 1
  funext a
  refine Fin.ext ?_
  match a with
  | ⟨0, _⟩ =>
    show (gatherRowDims N C E wf).start (ix2 e c) idx 0 + (gatherRowDims N C E wf).batchCoord (ix2 e c) 0
      + (gatherRowDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowDims N C E wf).startIndexMap from List.mem_singleton.mpr rfl)]
    have hsi : (gatherRowDims N C E wf).siIdx (ix2 e c) ⟨List.idxOf (0 : Fin 2) (gatherRowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowDims N C E wf).start (ix2 e c) idx 1 + (gatherRowDims N C E wf).batchCoord (ix2 e c) 1
      + (gatherRowDims N C E wf).offCoord (ix2 e c) 1 = c.val
    have hs : (gatherRowDims N C E wf).start (ix2 e c) idx 1 = 0 := by
      unfold GatherDims.start
      have h : (1 : Fin 2) ∉ (gatherRowDims N C E wf).startIndexMap := by
        show (1 : Fin 2) ∉ ([0] : List (Fin 2))
        decide
      rw [dif_neg h]
    have ho : (gatherRowDims N C E wf).offCoord (ix2 e c) 1 = c.val := by
      unfold GatherDims.offCoord
      have hk : (1 : Fin 2) ∈ (gatherRowDims N C E wf).sKept := by
        show (1 : Fin 2) ∈ ([1] : List (Fin 2))
        decide
      rw [dif_pos hk]
      rfl
    rw [hs, GatherDims.batchCoord_eq_zero _ _ _ List.not_mem_nil, ho]
    omega

end GatherRow

end Cert.LibRowScatter
-- ==== Proof.GcnMath.lean ====
/-
  The mathematics of the two graph-convolution layers on the extended reals.
  * The self-loop degree `(0 + Σ_{e into j} 1) + 2` is the real number `(number of edges into j) + 2 ≥ 2`, so its
    reciprocal square root is a nonnegative real, and the reference's guarded form
    `if deg > 0 then rsqrt(max(deg, ε)) else 0` (with `0 < ε ≤ 2`) is the plain `rsqrt(deg)`.
  * A nonnegative real factor distributes over any finite sum of extended reals.
  * THE LAYER IDENTITY: the sum over the edges into `j` and the one self loop at `j` of
    `xw[src e] · (d[src e] · w_e · d[j])`, with `w_e = 1` on edges and `2` on the loop, is
    `d[j] · Σ_e (xw[src e] · d[src e]) + (2 · d[j]) · (xw[j] · d[j])`: the factor `d[j]` is taken out of the sum.
  * A sum over the first `a` and the last `b` of `a + b` positions splits in two; a word that names a node, read
    signed, is not wrapped and is its own node.
-/
import Mathlib
import Idealize.ShloMosaic.PureOps.Ideal
import Idealize.ShloMosaic.PureOps.Ideal.Laws

open scoped BigOperators

noncomputable section

namespace Cert.GcnMath

open Idealize.ShloMosaic

/-! ## The float words of the two programs -/

/-- The word `0x3F800000` (exponent 127, zero fraction) is `1`. -/
theorem ofBits_one : Ideal.ofBits .f32 0x3F800000#32 = 1 := by
  simp [Ideal.ofBits, Ideal.ieee, -EReal.coe_mul]; norm_num

/-- The word `0x40000000` (exponent 128, zero fraction) is `2`. -/
theorem ofBits_two : Ideal.ofBits .f32 0x40000000#32 = 2 := by
  simp [Ideal.ofBits, Ideal.ieee, -EReal.coe_mul]; norm_num
  rfl

/-- The word `0x2B8CBCCC` (the float nearest `1e-12`) is a positive real below `2`. -/
theorem ofBits_eps : ∃ ε : ℝ, Ideal.ofBits .f32 0x2B8CBCCC#32 = (ε : EReal) ∧ 0 < ε ∧ ε ≤ 2 := by
  refine ⟨(9223372 : ℝ) * (2 : ℝ) ^ (-63 : ℤ), ?_, by positivity, ?_⟩
  · simp [Ideal.ofBits, Ideal.ieee, -EReal.coe_mul]
  · have : (2 : ℝ) ^ (-63 : ℤ) = 1 / 9223372036854775808 := by norm_num [zpow_neg]
    rw [this]; norm_num

/-! ## The degree and its reciprocal square root -/

/-- `(0 + Σ_{e ∈ S} 1) + 2` is the real `|S| + 2`. -/
theorem deg_eq {ι : Type*} (S : Finset ι) :
    ((0 : EReal) + ∑ _e ∈ S, (1 : EReal)) + 2 = (((S.card : ℝ) + 2 : ℝ) : EReal) := by
  have hs : ∀ T : Finset ι, ∑ _e ∈ T, (1 : EReal) = ((T.card : ℝ) : EReal) := by
    classical
    intro T
    induction T using Finset.induction_on with
    | empty => simp
    | insert a s ha ih =>
      rw [Finset.sum_insert ha, ih, Finset.card_insert_of_notMem ha]
      push_cast
      rw [add_comm]
  rw [zero_add, hs, EReal.coe_add]
  rfl

/-- The reciprocal square root of a real `x ≥ 2` is a nonnegative real. -/
theorem rsqrt_real {x : ℝ} (hx : 2 ≤ x) : Ideal.rsqrt (x : EReal) = (((Real.sqrt x)⁻¹ : ℝ) : EReal) := by
  rw [Ideal.rsqrt_coe, if_neg (by linarith), if_neg (by linarith)]

/-- The reference's guarded reciprocal square root is the plain one at a real `x ≥ 2`, for any `0 < ε ≤ 2`. -/
theorem guarded_rsqrt {x ε : ℝ} (hx : 2 ≤ x) (hε0 : 0 < ε) (hε : ε ≤ 2) :
    Scalar.select (Ideal.cmp .ogt (x : EReal) 0) (Ideal.rsqrt (max (x : EReal) (ε : EReal))) (0 : EReal)
      = Ideal.rsqrt (x : EReal) := by
  have h1 : Ideal.cmp .ogt (x : EReal) 0 = 1#1 := by
    have : (0 : EReal) < (x : EReal) := by exact_mod_cast (by linarith : (0 : ℝ) < x)
    simp [Ideal.cmp, this]
  have h2 : max (x : EReal) (ε : EReal) = (x : EReal) := max_eq_left (by exact_mod_cast (by linarith : ε ≤ x))
  rw [h1, h2]
  rfl

/-! ## A nonnegative real factor and a finite sum -/

theorem mul_sum_of_nonneg_ne_top {ι : Type*} (S : Finset ι) (f : ι → EReal) {x : EReal} (h0 : 0 ≤ x) (ht : x ≠ ⊤) :
    x * ∑ e ∈ S, f e = ∑ e ∈ S, x * f e := by
  classical
  induction S using Finset.induction_on with
  | empty => simp
  | insert a s ha ih =>
    rw [Finset.sum_insert ha, Finset.sum_insert ha, EReal.left_distrib_of_nonneg_of_ne_top h0 ht, ih]

/-! ## The layer identity -/

/-- The reference's sum over the edges into `j` and the self loop at `j`, each message weighted by
    `d[src] · w · d[j]`, against the kernel's `d[j] · (aggregate of the scaled rows) + 2 d[j] · (own scaled row)`. -/
theorem layer_eq {ι ν : Type*} (S : Finset ι) (n : ι → ν) (d : ν → EReal) (xw : ν → EReal) (b z one two : EReal) (j : ν)
    (hz : z = 0) (hone : one = 1) (hd0 : 0 ≤ d j) (hdt : d j ≠ ⊤) :
    (z + (∑ e ∈ S, xw (n e) * ((d (n e) * one) * d j) + xw j * ((d j * two) * d j))) + b
      = (d j * (z + ∑ e ∈ S, xw (n e) * d (n e)) + (two * d j) * (xw j * d j)) + b := by
  subst hz hone
  simp only [zero_add, mul_one]
  rw [mul_sum_of_nonneg_ne_top S _ hd0 hdt]
  congr 2
  · refine Finset.sum_congr rfl fun e _ => ?_
    ac_rfl
  · ac_rfl

/-! ## Sums over a joined index range -/

/-- A filtered sum over `a + b` positions is the filtered sum over the first `a` plus the one over the last `b`. -/
theorem sum_filter_split {M : Type*} [AddCommMonoid M] {n a b : ℕ} (h : a + b = n) (P : Fin n → Prop) [DecidablePred P]
    (f : Fin n → M) :
    ∑ e' ∈ Finset.univ.filter P, f e'
      = ∑ e ∈ Finset.univ.filter (fun e : Fin a => P ⟨e.val, by omega⟩), f ⟨e.val, by omega⟩
        + ∑ i ∈ Finset.univ.filter (fun i : Fin b => P ⟨a + i.val, by omega⟩), f ⟨a + i.val, by omega⟩ := by
  subst h
  rw [Finset.sum_filter, Finset.sum_filter, Finset.sum_filter, Fin.sum_univ_add]
  rfl

/-- A filtered sum whose filter holds of exactly one position is the term there. -/
theorem sum_filter_single {M : Type*} [AddCommMonoid M] {ν : Type*} [Fintype ν] [DecidableEq ν] (P : ν → Prop) [DecidablePred P]
    (j : ν) (hP : ∀ i, P i ↔ i = j) (g : ν → M) : ∑ i ∈ Finset.univ.filter P, g i = g j := by
  have : Finset.univ.filter P = {j} := by
    ext i; simp [hP]
  rw [this, Finset.sum_singleton]

/-! ## Index words -/

/-- A negative index word counts from the end of the 100000 nodes. -/
def wrapW (v : BitVec 32) : BitVec 32 := Scalar.select (IntOp.cmpi .slt v 0#32) (IntOp.addi v 100000#32) v

/-- A word that is nonnegative read signed is not wrapped. -/
theorem wrapW_of_nonneg (v : BitVec 32) (h : 0 ≤ v.toInt) : wrapW v = v := by
  unfold wrapW IntOp.cmpi Scalar.select
  have : v.slt 0#32 = false := by
    rw [BitVec.slt_eq_decide]
    simp only [decide_eq_false_iff_not, not_lt]
    simpa using h
  simp [this]

/-- The word of a node number below 100000 reads, signed, as that number. -/
theorem toInt_ofNat_node (i : ℕ) (hi : i < 100000) : (BitVec.ofNat 32 i).toInt = (i : ℤ) := by
  rw [BitVec.toInt_ofNat']
  have : (i : ℤ) % 2 ^ 32 = i := Int.emod_eq_of_lt (by omega) (by omega)
  unfold Int.bmod
  simp only [Nat.cast_pow, Nat.cast_ofNat]
  omega

end Cert.GcnMath

end
-- ==== Proof.KRead.lean ====
/-
  The kernel program's host arrays read at an index:
    srcV ei [e] = ei[0, e],   dstV ei [e] = ei[1, e],
    disV ei [j, 0] = rsqrt((0 + Σ_{e : dst e = j} 1) + 2),
    aggV HP src dst [j, c] = 0 + Σ_{e : dst e = j} HP[node(src e), c],
    biasV b [0, c] = b[c],
  where `dst e = j` compares the destination word read signed, and `node` wraps a negative word by 100000 and clamps
  it into the node range.
-/
import proofs.«164124_j50483045597683_2_alg».proof.Proof.KHost
import proofs.«164124_j50483045597683_2_alg».proof.Proof.LibRowScatter
import proofs.«164124_j50483045597683_2_alg».proof.Proof.GcnMath
import Idealize.ShloMosaic.Lib.Pipeline.Value
import Idealize.ShloMosaic.Lib.ValueIdx

set_option maxRecDepth 16384

open scoped BigOperators

noncomputable section

namespace Cert.KernelIdeal.KVal

open Cert.KernelIdeal Cert.KernelIdeal.Gen Idealize.ShloMosaic Idealize.ShloMosaic.TcCoe Idealize.ShloMosaic.ValueIdx
open Cert.LibScatterRead Cert.LibRowScatter Cert.GcnMath

theorem srcV_apply (ei : IVec S2x1600000 32) (e : Fin 1600000) : srcV ei (ix1 e) = ei (ix2 0 e) := by
  unfold srcV
  refine (shapeCast_apply _ shapeCasts_S1x1600000_S1600000 (ix1 e) (ix2 0 e) ?_).trans ?_
  · rewrite [Shape.rowMajor_val_two, Shape.rowMajor_val_one]; show 0 * 1600000 + e.val = e.val; omega
  · exact extractStridedSlice_apply ![0, 0] ei slices_S2x1600000_S1x1600000_0_0 (ix2 0 e) (ix2 0 e) (fun a => match a with
      | ⟨0, _⟩ => by show (0 : ℕ) = 0 + 0; omega
      | ⟨1, _⟩ => by show e.val = 0 + e.val; omega)

theorem dstV_apply (ei : IVec S2x1600000 32) (e : Fin 1600000) : dstV ei (ix1 e) = ei (ix2 1 e) := by
  unfold dstV
  refine (shapeCast_apply _ shapeCasts_S1x1600000_S1600000 (ix1 e) (ix2 0 e) ?_).trans ?_
  · rewrite [Shape.rowMajor_val_two, Shape.rowMajor_val_one]; show 0 * 1600000 + e.val = e.val; omega
  · exact extractStridedSlice_apply ![1, 0] ei slices_S2x1600000_S1x1600000_1_0 (ix2 0 e) (ix2 1 e) (fun a => match a with
      | ⟨0, _⟩ => by show (1 : ℕ) = 1 + 0; omega
      | ⟨1, _⟩ => by show e.val = 0 + e.val; omega)

/-- A vector of edge words as a column, at `(e, 0)`. -/
theorem bcastCol_apply (v : IVec S1600000 32) (e : Fin 1600000) :
    broadcastInDim S1600000x1 ![0] bcast_S1600000_S1600000x1_0 v (ix2 e 0) = v (ix1 e) :=
  broadcastInDim_apply _ bcast_S1600000_S1600000x1_0 v (ix2 e 0) (ix1 e) (fun a => match a with
    | ⟨0, _⟩ => by show e.val = if (1600000 : Nat) = 1 then 0 else e.val; rw [if_neg (by decide)])

/-- THE FACTOR of node `j`: the reciprocal square root of its degree with the self loop. -/
theorem disV_apply (ei : IVec S2x1600000 32) (j : Fin 100000) :
    disV ei (ix2 j 0) = Ideal.rsqrt ((Ideal.ofBits .f32 0x00000000#32
        + ∑ e ∈ Finset.univ.filter (fun e : Fin 1600000 => (dstV ei (ix1 e)).toInt = (j.val : ℤ)), Ideal.ofBits .f32 0x3F800000#32)
        + Ideal.ofBits .f32 0x40000000#32) := by
  unfold disV
  refine (shapeCast_apply _ shapeCasts_S100000_S100000x1 (ix2 j 0) (ix1 j) ?_).trans ?_
  · rewrite [Shape.rowMajor_val_one, Shape.rowMajor_val_two]; show j.val = j.val * 1 + 0; omega
  · rw [show ∀ v : FVec Ideal S100000 .f32, Host.rsqrt (F := Ideal) v (ix1 j) = Ideal.rsqrt (v (ix1 j)) from fun v => rfl, addf_apply]
    refine congrArg Ideal.rsqrt (congrArg₂ (· + ·) ?_ rfl)
    refine (scatterAdd1_apply (scatter_S100000_S1600000x1_S1600000_n_0_0_1).wf _ _ _ j).trans ?_
    refine congrArg₂ (· + ·) rfl ?_
    exact Finset.sum_congr (Finset.filter_congr fun e _ => by rw [bcastCol_apply]) fun e _ => rfl

/-- THE AGGREGATE at node `j`, channel `c`: the sum over the edges into `j` of the source node's row at `c`. -/
theorem aggV_apply (HP : FVec Ideal S100000x128 .bf16) (src dst : IVec S1600000 32) (j : Fin 100000) (c : Fin 128) :
    aggV HP src dst (ix2 j c) = Ideal.ofBits .f32 0x00000000#32
      + ∑ e ∈ Finset.univ.filter (fun e : Fin 1600000 => (dst (ix1 e)).toInt = (j.val : ℤ)),
          HP (ix2 (clampIdx (by norm_num : 0 < 100000) (wrapW (src (ix1 e))).toInt) c) := by
  unfold aggV
  refine (scatterAddRow_apply (scatter_S100000x128_S1600000x1_S1600000x128_1_0_0_1).wf _ _ _ j c).trans ?_
  refine congrArg₂ (· + ·) rfl ?_
  refine Finset.sum_congr (Finset.filter_congr fun e _ => by rw [bcastCol_apply]) fun e _ => ?_
  refine (gatherRow_apply (gather_S100000x128_S1600000x1_S1600000x128_1_0_n_n_0_1_1128).wf (by norm_num) HP _ e c).trans ?_
  rw [bcastCol_apply]
  rfl

/-- The bias row at channel `c`. -/
theorem biasV_apply (b : FVec Ideal S128 .f32) (c : Fin 128) : biasV b (ix2 0 c) = b (ix1 c) := by
  unfold biasV
  refine shapeCast_apply b shapeCasts_S128_S1x128 (ix2 0 c) (ix1 c) ?_
  rewrite [Shape.rowMajor_val_one, Shape.rowMajor_val_two]; show c.val = 0 * 128 + c.val; omega

end Cert.KernelIdeal.KVal

end
-- ==== Proof.RefLayer.lean ====
/-
  The reference program read at an index. Its edge list is the 1600000 edges followed by one self loop per node (words
  joined with the node numbers; weights 1 on edges, 2 on loops). Read here:
    * the joined words and weights at an edge position and at a loop position;
    * the degree `deg[j] = 0 + Σ_{e' into j} w[e']`, split into edges and the one loop at `j`: `(0 + Σ_{e into j} 1) + 2`;
    * the guarded scale `dis[j]`, which is the plain `rsqrt(deg[j])`, a nonnegative real;
    * the edge norm `dis[src] · w · dis[dst]`;
    * one layer `(0 + Σ_{e' into j} (X·W)[src e', c] · norm[e']) + b[c]` for an ARBITRARY input array `X`.
-/
import proofs.«164124_j50483045597683_2_alg».proof.Proof.RefRead
import proofs.«164124_j50483045597683_2_alg».proof.Proof.LibRowScatter
import proofs.«164124_j50483045597683_2_alg».proof.Proof.GcnMath
import Idealize.ShloMosaic.Lib.Pipeline.Value
import Idealize.ShloMosaic.Lib.ValueIdx

set_option maxRecDepth 16384

open scoped BigOperators

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx
open Cert.LibScatterRead Cert.LibRowScatter Cert.GcnMath

variable (x1 : IVec S2x1600000 32)

theorem hN : 0 < 100000 := by norm_num

/-! ## The joined words and weights -/

theorem v5_edge (e : Fin 1600000) :
    val_main_v5 (F := Ideal) x1 (ix1 ⟨e.val, by omega⟩) = val_main_v1 (F := Ideal) x1 (ix1 e) := by
  unfold val_main_v5
  exact concatenate_pair_apply_left 0 _ _ concatenates_S1600000_S100000_S1700000_d0 _ rfl (ix1 e) (fun b => match b with
    | ⟨0, _⟩ => rfl)

theorem v5_loop (i : Fin 100000) :
    val_main_v5 (F := Ideal) x1 (ix1 ⟨1600000 + i.val, by omega⟩) = BitVec.ofNat 32 i.val := by
  unfold val_main_v5
  exact concatenate_pair_apply_right 0 _ _ concatenates_S1600000_S100000_S1700000_d0 _ rfl rfl (ix1 i)
    (fun b hb => absurd (Subsingleton.elim _ _) hb) (by show i.val + 1600000 = 1600000 + i.val; omega)

theorem v6_edge (e : Fin 1600000) :
    val_main_v6 (F := Ideal) x1 (ix1 ⟨e.val, by omega⟩) = val_main_v3 (F := Ideal) x1 (ix1 e) := by
  unfold val_main_v6
  exact concatenate_pair_apply_left 0 _ _ concatenates_S1600000_S100000_S1700000_d0 _ rfl (ix1 e) (fun b => match b with
    | ⟨0, _⟩ => rfl)

theorem v6_loop (i : Fin 100000) :
    val_main_v6 (F := Ideal) x1 (ix1 ⟨1600000 + i.val, by omega⟩) = BitVec.ofNat 32 i.val := by
  unfold val_main_v6
  exact concatenate_pair_apply_right 0 _ _ concatenates_S1600000_S100000_S1700000_d0 _ rfl rfl (ix1 i)
    (fun b hb => absurd (Subsingleton.elim _ _) hb) (by show i.val + 1600000 = 1600000 + i.val; omega)

theorem v9_edge (e : Fin 1600000) :
    val_main_v9 (F := Ideal) (ix1 ⟨e.val, by omega⟩) = Ideal.ofBits .f32 0x3F800000#32 := by
  unfold val_main_v9
  exact concatenate_pair_apply_left 0 _ _ concatenates_S1600000_S100000_S1700000_d0 _ rfl (ix1 e) (fun b => match b with
    | ⟨0, _⟩ => rfl)

theorem v9_loop (i : Fin 100000) :
    val_main_v9 (F := Ideal) (ix1 ⟨1600000 + i.val, by omega⟩) = Ideal.ofBits .f32 0x40000000#32 := by
  unfold val_main_v9
  exact concatenate_pair_apply_right 0 _ _ concatenates_S1600000_S100000_S1700000_d0 _ rfl rfl (ix1 i)
    (fun b hb => absurd (Subsingleton.elim _ _) hb) (by show i.val + 1600000 = 1600000 + i.val; omega)

/-- A vector over the joined edge list as a column, at `(e', 0)`. -/
theorem bcastCol_apply {α : Type} (v : S1700000.Idx → α) (e' : Fin 1700000) :
    broadcastInDim S1700000x1 ![0] bcast_S1700000_S1700000x1_0 v (ix2 e' 0) = v (ix1 e') :=
  broadcastInDim_apply _ bcast_S1700000_S1700000x1_0 v (ix2 e' 0) (ix1 e') (fun a => match a with
    | ⟨0, _⟩ => by show e'.val = if (1700000 : Nat) = 1 then 0 else e'.val; rw [if_neg (by decide)])

/-- A node named by a word: the word read signed is the node's number, so it is neither wrapped nor clamped. -/
theorem node_of_toInt (v : BitVec 32) (j : Fin 100000) (h : v.toInt = (j.val : ℤ)) : clampIdx hN (wrapW v).toInt = j := by
  rw [wrapW_of_nonneg v (by omega), h]
  exact ((eq_coe_iff_clampIdx hN _ j).mp rfl).2

/-! ## The degree -/

/-- The kernel-shaped degree of node `j` over destination words `dst`: the edges into `j`, then the self loop. -/
def degK (dst : IVec S1600000 32) (j : Fin 100000) : EReal :=
  (Ideal.ofBits .f32 0x00000000#32
      + ∑ e ∈ Finset.univ.filter (fun e : Fin 1600000 => (dst (ix1 e)).toInt = (j.val : ℤ)), Ideal.ofBits .f32 0x3F800000#32)
    + Ideal.ofBits .f32 0x40000000#32

theorem v12_apply (j : Fin 100000) :
    val_main_v12 (F := Ideal) x1 (ix1 j) = Ideal.ofBits .f32 0x00000000#32
      + ∑ e' ∈ Finset.univ.filter (fun e' : Fin 1700000 => (val_main_v6 (F := Ideal) x1 (ix1 e')).toInt = (j.val : ℤ)),
          val_main_v9 (F := Ideal) (ix1 e') := by
  unfold val_main_v12
  refine (scatterAdd1_apply (scatter_S100000_S1700000x1_S1700000_n_0_0_1).wf _ _ _ j).trans ?_
  refine congrArg₂ (· + ·) rfl ?_
  exact Finset.sum_congr (Finset.filter_congr fun e' _ => by unfold val_main_v11; rw [bcastCol_apply]) fun _ _ => rfl

theorem v12_eq_degK (j : Fin 100000) : val_main_v12 (F := Ideal) x1 (ix1 j) = degK (val_main_v3 (F := Ideal) x1) j := by
  rw [v12_apply, sum_filter_split (a := 1600000) (b := 100000) rfl]
  unfold degK
  rw [add_assoc]
  refine congrArg₂ (· + ·) rfl (congrArg₂ (· + ·) ?_ ?_)
  · exact Finset.sum_congr (Finset.filter_congr fun e _ => by rw [v6_edge]) fun e _ => v9_edge e
  · rw [sum_filter_single _ j (fun i => by
      rw [v6_loop, toInt_ofNat_node i.val i.isLt]
      exact ⟨fun h => Fin.ext (by exact_mod_cast h), fun h => by rw [h]⟩)]
    exact v9_loop j

/-- The degree is a real number at least `2`. -/
theorem degK_real (dst : IVec S1600000 32) (j : Fin 100000) : ∃ x : ℝ, 2 ≤ x ∧ degK dst j = (x : EReal) := by
  refine ⟨((Finset.univ.filter (fun e : Fin 1600000 => (dst (ix1 e)).toInt = (j.val : ℤ))).card : ℝ) + 2, by have : (0 : ℝ) ≤ ((Finset.univ.filter (fun e : Fin 1600000 => (dst (ix1 e)).toInt = (j.val : ℤ))).card : ℝ) := Nat.cast_nonneg _; linarith, ?_⟩
  unfold degK
  rw [Ideal.ofBits_zero_f32, ofBits_one, ofBits_two]
  exact deg_eq _

/-! ## The scale -/

/-- The reference's guarded scale is the reciprocal square root of the degree. -/
theorem v18_apply (j : Fin 100000) :
    val_main_v18 (F := Ideal) x1 (ix1 j) = Ideal.rsqrt (degK (val_main_v3 (F := Ideal) x1) j) := by
  rw [val_main_v18_apply, val_main_v14_apply, val_main_v17_apply, val_main_v16_apply,
    show val_main_v13 (F := Ideal) (ix1 j) = Ideal.ofBits .f32 0x00000000#32 from rfl,
    show val_main_v15 (F := Ideal) (ix1 j) = Ideal.ofBits .f32 0x2B8CBCCC#32 from rfl,
    show val_main_call0_v1 (F := Ideal) (ix1 j) = Ideal.ofBits .f32 0x00000000#32 from rfl,
    Ideal.cmpf_def, Ideal.hostUnary_rsqrt_def, Ideal.maximumf_def, v12_eq_degK]
  obtain ⟨x, hx, hd⟩ := degK_real (val_main_v3 (F := Ideal) x1) j
  obtain ⟨ε, hε, h0, h2⟩ := ofBits_eps
  rw [hd, hε, Ideal.ofBits_zero_f32]
  exact guarded_rsqrt hx h0 h2

/-- The scale is a nonnegative real. -/
theorem dis_nonneg (dst : IVec S1600000 32) (j : Fin 100000) :
    0 ≤ Ideal.rsqrt (degK dst j) ∧ Ideal.rsqrt (degK dst j) ≠ ⊤ := by
  obtain ⟨x, hx, hd⟩ := degK_real dst j
  rw [hd, rsqrt_real hx]
  exact ⟨by exact_mod_cast inv_nonneg.mpr (Real.sqrt_nonneg x), EReal.coe_ne_top _⟩

/-! ## The gathered scale and the edge norm -/

theorem v23_apply (e' : Fin 1700000) :
    val_main_v23 (F := Ideal) x1 (ix1 e') = wrapW (val_main_v5 (F := Ideal) x1 (ix1 e')) := rfl
theorem v31_apply (e' : Fin 1700000) :
    val_main_v31 (F := Ideal) x1 (ix1 e') = wrapW (val_main_v6 (F := Ideal) x1 (ix1 e')) := rfl
theorem v40_apply (e' : Fin 1700000) :
    val_main_v40 (F := Ideal) x1 (ix1 e') = wrapW (val_main_v5 (F := Ideal) x1 (ix1 e')) := rfl

/-- The node position `e'` of the joined list gathers from, as its source. -/
def srcNode (e' : Fin 1700000) : Fin 100000 := clampIdx hN (wrapW (val_main_v5 (F := Ideal) x1 (ix1 e'))).toInt
/-- The node position `e'` of the joined list gathers from, as its destination. -/
def dstNode (e' : Fin 1700000) : Fin 100000 := clampIdx hN (wrapW (val_main_v6 (F := Ideal) x1 (ix1 e'))).toInt

/-- The scale of node `i`. -/
def D (i : Fin 100000) : EReal := Ideal.rsqrt (degK (val_main_v3 (F := Ideal) x1) i)

theorem v25_apply (e' : Fin 1700000) : val_main_v25 (F := Ideal) x1 (ix1 e') = D x1 (srcNode x1 e') := by
  unfold val_main_v25
  refine (gather1_apply (gather_S100000_S1700000x1_S1700000_n_0_n_n_0_1_1).wf hN _ _ e').trans ?_
  unfold val_main_v24
  rw [bcastCol_apply, v23_apply]
  exact v18_apply x1 _

theorem v33_apply (e' : Fin 1700000) : val_main_v33 (F := Ideal) x1 (ix1 e') = D x1 (dstNode x1 e') := by
  unfold val_main_v33
  refine (gather1_apply (gather_S100000_S1700000x1_S1700000_n_0_n_n_0_1_1).wf hN _ _ e').trans ?_
  unfold val_main_v32
  rw [bcastCol_apply, v31_apply]
  exact v18_apply x1 _

/-- The norm of position `e'`: the source's scale, the weight, the destination's scale. -/
theorem v34_apply (e' : Fin 1700000) :
    val_main_v34 (F := Ideal) x1 (ix1 e') = (D x1 (srcNode x1 e') * val_main_v9 (F := Ideal) (ix1 e')) * D x1 (dstNode x1 e') := by
  rw [val_main_v34_apply, val_main_v26_apply, v25_apply, v33_apply]
  rfl

/-! ## One layer, for an arbitrary input array -/

/-- The matrix product at row `n`, channel `c`. -/
theorem xw_apply (X : FVec Ideal S100000x128 .f32) (W : FVec Ideal S128x128 .f32) (n : Fin 100000) (c : Fin 128) :
    Host.dotGeneral (F := Ideal) dot_S100000x128_S128x128_S100000x128_1_0_0_1_n_n none X W (ix2 n c)
      = ∑ k : Fin 128, X (ix2 n k) * W (ix2 k c) := by
  refine (val_main_v35_apply X W (ix2 n c)).trans ?_
  refine Finset.sum_congr rfl fun k _ => ?_
  have hl : lidx_main_v35 (ix2 n c) k = ix2 n k := funext fun a => Fin.ext (by
    match a with
    | ⟨0, _⟩ => rfl
    | ⟨1, _⟩ => rfl)
  have hr : ridx_main_v35 (ix2 n c) k = ix2 k c := funext fun a => Fin.ext (by
    match a with
    | ⟨0, _⟩ => rfl
    | ⟨1, _⟩ => rfl)
  rw [hl, hr]

/-- The reference's layer on an input array `X`: the messages `(X·W)[src] · norm` scattered onto their destinations,
    plus the bias. -/
def refLayer (X : FVec Ideal S100000x128 .f32) (W : FVec Ideal S128x128 .f32) (b : FVec Ideal S128 .f32) : FVec Ideal S100000x128 .f32 :=
  addf
    (Host.scatterAdd (F := Ideal) scatter_S100000x128_S1700000x1_S1700000x128_1_0_0_1 (val_main_v46 (F := Ideal)) (val_main_v47 (F := Ideal) x1)
      (mulf
        (Host.gather gather_S100000x128_S1700000x1_S1700000x128_1_0_n_n_0_1_1128
          (Host.dotGeneral (F := Ideal) dot_S100000x128_S128x128_S100000x128_1_0_0_1_n_n none X W) (val_main_v41 (F := Ideal) x1))
        (val_main_v44 (F := Ideal) x1)))
    (val_main_v50 (F := Ideal) b)

theorem refLayer_apply (X : FVec Ideal S100000x128 .f32) (W : FVec Ideal S128x128 .f32) (b : FVec Ideal S128 .f32) (j : Fin 100000) (c : Fin 128) :
    refLayer x1 X W b (ix2 j c)
      = (Ideal.ofBits .f32 0x00000000#32
          + ∑ e' ∈ Finset.univ.filter (fun e' : Fin 1700000 => (val_main_v6 (F := Ideal) x1 (ix1 e')).toInt = (j.val : ℤ)),
              (∑ k : Fin 128, X (ix2 (srcNode x1 e') k) * W (ix2 k c)) * val_main_v34 (F := Ideal) x1 (ix1 e'))
        + b (ix1 c) := by
  unfold refLayer
  rw [addf_apply]
  refine congrArg₂ (· + ·) ?_ ?_
  · refine (scatterAddRow_apply (scatter_S100000x128_S1700000x1_S1700000x128_1_0_0_1).wf _ _ _ j c).trans ?_
    refine congrArg₂ (· + ·) rfl ?_
    refine Finset.sum_congr (Finset.filter_congr fun e' _ => by unfold val_main_v47; rw [bcastCol_apply]) fun e' _ => ?_
    rw [mulf_apply]
    refine congrArg₂ (· * ·) ?_ ?_
    · refine (gatherRow_apply (gather_S100000x128_S1700000x1_S1700000x128_1_0_n_n_0_1_1128).wf hN _ _ e' c).trans ?_
      unfold val_main_v41
      rw [bcastCol_apply, v40_apply]
      exact xw_apply X W _ c
    · refine (val_main_v44_apply x1 (ix2 e' c)).trans ?_
      refine (val_main_v43_apply x1 _).trans ?_
      exact congrArg (val_main_v34 (F := Ideal) x1) (funext fun a => match a with | ⟨0, _⟩ => rfl)
  · refine (val_main_v50_apply (F := Ideal) b (ix2 j c)).trans ?_
    refine (val_main_v49_apply (F := Ideal) b _).trans ?_
    exact congrArg b (funext fun a => match a with | ⟨0, _⟩ => rfl)

/-- THE REFERENCE'S LAYER IN THE KERNEL'S SHAPE: at node `j`, channel `c`, with `d = D` the scale and
    `xw[i] = (X·W)[i, c]`: `d[j] · (0 + Σ_{e into j} xw[src e] · d[src e]) + (2 · d[j]) · (xw[j] · d[j]) + b[c]`. -/
theorem refLayer_eq (X : FVec Ideal S100000x128 .f32) (W : FVec Ideal S128x128 .f32) (b : FVec Ideal S128 .f32) (j : Fin 100000) (c : Fin 128) :
    refLayer x1 X W b (ix2 j c)
      = (D x1 j * (Ideal.ofBits .f32 0x00000000#32
            + ∑ e ∈ Finset.univ.filter (fun e : Fin 1600000 => (val_main_v3 (F := Ideal) x1 (ix1 e)).toInt = (j.val : ℤ)),
                (∑ k : Fin 128, X (ix2 (clampIdx hN (wrapW (val_main_v1 (F := Ideal) x1 (ix1 e))).toInt) k) * W (ix2 k c))
                  * D x1 (clampIdx hN (wrapW (val_main_v1 (F := Ideal) x1 (ix1 e))).toInt))
          + (Ideal.ofBits .f32 0x40000000#32 * D x1 j) * ((∑ k : Fin 128, X (ix2 j k) * W (ix2 k c)) * D x1 j))
        + b (ix1 c) := by
  rw [refLayer_apply, sum_filter_split (a := 1600000) (b := 100000) rfl]
  have hE : ∑ e ∈ Finset.univ.filter (fun e : Fin 1600000 => (val_main_v6 (F := Ideal) x1 (ix1 ⟨e.val, by omega⟩)).toInt = (j.val : ℤ)),
        (∑ k : Fin 128, X (ix2 (srcNode x1 ⟨e.val, by omega⟩) k) * W (ix2 k c)) * val_main_v34 (F := Ideal) x1 (ix1 ⟨e.val, by omega⟩)
      = ∑ e ∈ Finset.univ.filter (fun e : Fin 1600000 => (val_main_v3 (F := Ideal) x1 (ix1 e)).toInt = (j.val : ℤ)),
          (∑ k : Fin 128, X (ix2 (clampIdx hN (wrapW (val_main_v1 (F := Ideal) x1 (ix1 e))).toInt) k) * W (ix2 k c))
            * ((D x1 (clampIdx hN (wrapW (val_main_v1 (F := Ideal) x1 (ix1 e))).toInt) * Ideal.ofBits .f32 0x3F800000#32) * D x1 j) := by
    refine Finset.sum_congr (Finset.filter_congr fun e _ => by rw [v6_edge]) fun e he => ?_
    have hland : (val_main_v3 (F := Ideal) x1 (ix1 e)).toInt = (j.val : ℤ) := (Finset.mem_filter.mp he).2
    have hs : srcNode x1 ⟨e.val, by omega⟩ = clampIdx hN (wrapW (val_main_v1 (F := Ideal) x1 (ix1 e))).toInt := by
      unfold srcNode; rw [v5_edge]
    have hd : dstNode x1 ⟨e.val, by omega⟩ = j := by
      unfold dstNode; rw [v6_edge]; exact node_of_toInt _ j hland
    rw [v34_apply, hs, hd, v9_edge]
  have hL : ∑ i ∈ Finset.univ.filter (fun i : Fin 100000 => (val_main_v6 (F := Ideal) x1 (ix1 ⟨1600000 + i.val, by omega⟩)).toInt = (j.val : ℤ)),
        (∑ k : Fin 128, X (ix2 (srcNode x1 ⟨1600000 + i.val, by omega⟩) k) * W (ix2 k c)) * val_main_v34 (F := Ideal) x1 (ix1 ⟨1600000 + i.val, by omega⟩)
      = (∑ k : Fin 128, X (ix2 j k) * W (ix2 k c)) * ((D x1 j * Ideal.ofBits .f32 0x40000000#32) * D x1 j) := by
    rw [sum_filter_single _ j (fun i => by
      rw [v6_loop, toInt_ofNat_node i.val i.isLt]
      exact ⟨fun h => Fin.ext (by exact_mod_cast h), fun h => by rw [h]⟩)]
    have hs : srcNode x1 ⟨1600000 + j.val, by omega⟩ = j := by
      unfold srcNode; rw [v5_loop]; exact node_of_toInt _ j (toInt_ofNat_node j.val j.isLt)
    have hd : dstNode x1 ⟨1600000 + j.val, by omega⟩ = j := by
      unfold dstNode; rw [v6_loop]; exact node_of_toInt _ j (toInt_ofNat_node j.val j.isLt)
    rw [v34_apply, hs, hd, v9_loop]
  rw [hE, hL]
  exact layer_eq _ (fun e => clampIdx hN (wrapW (val_main_v1 (F := Ideal) x1 (ix1 e))).toInt) (D x1)
    (fun i => ∑ k : Fin 128, X (ix2 i k) * W (ix2 k c)) (b (ix1 c)) _ _ _ j
    Ideal.ofBits_zero_f32 ofBits_one (dis_nonneg _ j).1 (dis_nonneg _ j).2

end Cert.ReferenceIdeal.RefValue

end
-- ==== Proof.Bridge.lean ====
/-
  The two programs compute one function. For ANY input array `X` the kernel's layer
      dis·agg((X·W)·dis) + (2·dis)·((X·W)·dis) + b
  and the reference's layer (messages `(X·W)[src]·dis[src]·w·dis[dst]` summed over the edges and self loops, plus `b`)
  agree index by index: both are read at `(j, c)`, the reference's sum splits into the edges into `j` and the loop at `j`,
  and the nonnegative real `dis[j]` is taken out of the sum (GcnMath.layer_eq). The maximum with zero after layer 1 is the
  same operation on both sides, so the kernel's result `outK` is the reference's last stage of the same arguments.
-/
import proofs.«164124_j50483045597683_2_alg».proof.Proof.KChain
import proofs.«164124_j50483045597683_2_alg».proof.Proof.KRead
import proofs.«164124_j50483045597683_2_alg».proof.Proof.RefLayer

set_option maxRecDepth 16384

open scoped BigOperators

noncomputable section

namespace Cert.Bridge

open Idealize.ShloMosaic Idealize.ShloMosaic.TcCoe Idealize.ShloMosaic.ValueIdx
open Cert.KernelIdeal.KVal Cert.ReferenceIdeal.RefValue Cert.ReferenceIdeal.ReadP
open Cert.ReferenceIdeal (S100000x128 S128x128 S128 S2x1600000)

/-- The two programs cut the same rows out of the edge list. -/
theorem srcV_eq (ei : IVec S2x1600000 32) : srcV ei = val_main_v1 (F := Ideal) ei := rfl
theorem dstV_eq (ei : IVec S2x1600000 32) : dstV ei = val_main_v3 (F := Ideal) ei := rfl

/-- ONE LAYER: the kernel's combine of its aggregate and scaled rows is the reference's layer, on any input array. -/
theorem layer_bridge (ei : IVec S2x1600000 32) (X : FVec Ideal S100000x128 .f32) (W : FVec Ideal S128x128 .f32) (b : FVec Ideal S128 .f32) :
    CB (aggV (MS X W (disV ei)) (srcV ei) (dstV ei)) (MS X W (disV ei)) (disV ei) (biasV b) = refLayer ei X W b := by
  funext p
  obtain ⟨j, c, rfl⟩ : ∃ (j : Fin 100000) (c : Fin 128), p = ix2 j c := ⟨p 0, p 1, eq_ix2 p⟩
  rw [refLayer_eq, CB_apply, aggV_apply, biasV_apply]
  simp only [MS_apply, disV_apply, srcV_eq, dstV_eq]
  unfold D degK
  rfl

/-- The reference's stage after layer 1's sum and bias is its layer on the input array. -/
theorem v51_eq_refLayer (x0 : FVec Ideal S100000x128 .f32) (x1 : IVec S2x1600000 32) (x2 : FVec Ideal S128x128 .f32) (x3 : FVec Ideal S128 .f32) :
    val_main_v51 (F := Ideal) x0 x1 x2 x3 = refLayer x1 x0 x2 x3 := by
  unfold val_main_v51 val_main_v48 val_main_v45 val_main_v42 val_main_v35 refLayer
  rfl

/-- Layer 2 of the reference repeats layer 1's index, norm and bias stages under other names. -/
theorem v64_eq : val_main_v64 (F := Ideal) = val_main_v46 (F := Ideal) := rfl
theorem v65_eq (x1 : IVec S2x1600000 32) : val_main_v65 (F := Ideal) x1 = val_main_v47 (F := Ideal) x1 := rfl
theorem v62_eq (x1 : IVec S2x1600000 32) : val_main_v62 (F := Ideal) x1 = val_main_v44 (F := Ideal) x1 := rfl
theorem v59_eq (x1 : IVec S2x1600000 32) : val_main_v59 (F := Ideal) x1 = val_main_v41 (F := Ideal) x1 := rfl
theorem v68_eq (x5 : FVec Ideal S128 .f32) : val_main_v68 (F := Ideal) x5 = val_main_v50 (F := Ideal) x5 := rfl

/-- The reference's last stage is its layer on the stage after `relu`. -/
theorem v69_eq_refLayer (x0 : FVec Ideal S100000x128 .f32) (x1 : IVec S2x1600000 32) (x2 : FVec Ideal S128x128 .f32) (x3 : FVec Ideal S128 .f32)
    (x4 : FVec Ideal S128x128 .f32) (x5 : FVec Ideal S128 .f32) :
    val_main_v69 (F := Ideal) x0 x1 x2 x3 x4 x5 = refLayer x1 (val_main_v52 (F := Ideal) x0 x1 x2 x3) x4 x5 := by
  unfold val_main_v69 val_main_v66 val_main_v63 val_main_v60 val_main_v53 refLayer
  rw [v64_eq, v65_eq, v62_eq, v59_eq, v68_eq]

/-- Layer 1 with its maximum: the kernel's `h1` is the reference's stage after `relu`. -/
theorem h1_bridge (x0 : FVec Ideal S100000x128 .f32) (x1 : IVec S2x1600000 32) (x2 : FVec Ideal S128x128 .f32) (x3 : FVec Ideal S128 .f32) :
    h1 x0 x1 x2 x3 = val_main_v52 (F := Ideal) x0 x1 x2 x3 := by
  unfold h1 hp1
  funext p
  rw [CBr_eq, layer_bridge, val_main_v52_apply, v51_eq_refLayer, Ideal.maximumf_def]
  rfl

/-- THE KERNEL'S RESULT IS THE REFERENCE'S: `outK` of the six arguments is the reference's last stage of them. -/
theorem outK_eq_ref (x0 : FVec Ideal S100000x128 .f32) (x1 : IVec S2x1600000 32) (x2 : FVec Ideal S128x128 .f32) (x3 : FVec Ideal S128 .f32)
    (x4 : FVec Ideal S128x128 .f32) (x5 : FVec Ideal S128 .f32) :
    outK x0 x1 x2 x3 x4 x5 = val_main_v69 (F := Ideal) x0 x1 x2 x3 x4 x5 := by
  unfold outK hp2
  rw [layer_bridge, h1_bridge]
  exact (v69_eq_refLayer x0 x1 x2 x3 x4 x5).symm

end Cert.Bridge

end
-- ==== Proof.lean ====
/- Two graph-convolution layers on 100000 nodes with 128 channels, over 1600000 edges and one self loop of weight 2 per
   node, symmetrically normalised: `out = Â·relu(Â·X·W₁ + b₁)·W₂ + b₂` with `Â[j,i] = dis[j]·(A + 2I)[j,i]·dis[i]` and
   `dis = rsqrt(deg)`, `deg[j] = (number of edges into j) + 2`.
   The kernel program factors the norm: it scales the rows of `X·W` by `dis` once (two matrix-product regions), sums the
   scaled rows along the edges on the host (gather at the source, scatter-add at the destination), and combines
   `dis·agg + (2·dis)·h' + b` (two combine regions, the first followed by the maximum with zero). The reference joins
   the self loops to the edge list and weights every message by `dis[src]·w·dis[dst]` before the sum.
   On the extended reals the two agree: the degree is a real number at least 2, so `dis[j]` is a nonnegative real (and
   the reference's guard `deg > 0`, `max(deg, 1e-12)` is the identity); a nonnegative real factor distributes over any
   finite sum of extended reals; the rest is commutativity and associativity. No finiteness of the inputs is used.
   The kernel's result as one function of the arguments is Proof/KChain.lean's `outK` (regions: KMatmulScale, KCombine;
   host stretches: KHost; the run: KRun), the reference's is its generated run; Proof/Bridge.lean joins them. -/
import proofs.«164124_j50483045597683_2_alg».proof.Defs
import proofs.«164124_j50483045597683_2_alg».proof.Proof.Gen.Kernel
import proofs.«164124_j50483045597683_2_alg».proof.Proof.Gen.Kernel.Skeleton
import proofs.«164124_j50483045597683_2_alg».proof.Proof.Gen.Kernel.Launch
import proofs.«164124_j50483045597683_2_alg».proof.Proof.Gen.Kernel.Points
import proofs.«164124_j50483045597683_2_alg».proof.Proof.Gen.Kernel.Frame
import proofs.«164124_j50483045597683_2_alg».proof.Proof.Gen.KernelIdeal
import proofs.«164124_j50483045597683_2_alg».proof.Proof.Gen.KernelIdeal.Skeleton
import proofs.«164124_j50483045597683_2_alg».proof.Proof.Gen.KernelIdeal.Launch
import proofs.«164124_j50483045597683_2_alg».proof.Proof.Gen.KernelIdeal.Points
import proofs.«164124_j50483045597683_2_alg».proof.Proof.Gen.KernelIdeal.Frame
import proofs.«164124_j50483045597683_2_alg».proof.Proof.Gen.ReferenceIdeal
import proofs.«164124_j50483045597683_2_alg».proof.Proof.Gen.Pre_finite_inputs
import proofs.«164124_j50483045597683_2_alg».proof.Proof.RefRun
import proofs.«164124_j50483045597683_2_alg».proof.Proof.RefRead
import proofs.«164124_j50483045597683_2_alg».proof.Proof.KRun
import proofs.«164124_j50483045597683_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : @Cert.frame_Kernel Cert.Kernel.Gen.facts Cert.Pre_finite_inputs.Gen.facts :=
  fun m ρ _ => Cert.Kernel.Gen.frame m ρ

/-- The idealized kernel program runs and leaves its arguments as launched. -/
theorem frame_ki : @Cert.frame_KernelIdeal Cert.KernelIdeal.Gen.facts Cert.Pre_finite_inputs.Gen.facts :=
  fun m ρ _ => Cert.KernelIdeal.Gen.frame m ρ

/-- The idealized reference runs and leaves its arguments as launched: its run, the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both idealized programs end with `outK` of the arguments in their result buffer: the kernel program by the values its
    regions and host stretches leave (`W7_v41`), the reference by its run and `Bridge.outK_eq_ref`. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KVal.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KVal.W7_v41 m ρ c), (h c).2⟩)
      (Cert.KernelIdeal.KRun.run_v41 (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v69_eq, ← Cert.Bridge.outK_eq_ref,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
